-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1000 : Shape := ⟨1, ![1000]⟩
abbrev S2x1 : Shape := ⟨2, ![2, 1]⟩
abbrev S2 : Shape := ⟨1, ![2]⟩
abbrev S8x2 : Shape := ⟨2, ![8, 2]⟩
abbrev S8 : Shape := ⟨1, ![8]⟩
abbrev S8x8 : Shape := ⟨2, ![8, 8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S32x32 : Shape := ⟨2, ![32, 32]⟩
abbrev S1000x32 : Shape := ⟨2, ![1000, 32]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1000 : S_.BroadcastsInDim S1000 (![] : Fin 0 → Fin S1000.rank)
  reducesTo_S1000_S_d0 : S1000.ReducesTo [0] S_
  bcast_S_S2x1 : S_.BroadcastsInDim S2x1 (![] : Fin 0 → Fin S2x1.rank)
  reducesTo_S2x1_S_d0_1 : S2x1.ReducesTo [0, 1] S_
  bcast_S_S2 : S_.BroadcastsInDim S2 (![] : Fin 0 → Fin S2.rank)
  reducesTo_S2_S_d0 : S2.ReducesTo [0] S_
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1000x32 : S_.BroadcastsInDim S1000x32 (![] : Fin 0 → Fin S1000x32.rank)
  reducesTo_S1000x32_S_d0_1 : S1000x32.ReducesTo [0, 1] S_

variable [Facts]

def fn_part5 {F : FTy → Type} [FloatOps F] (main_arg18 : FVec F S1000x32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S1000x32 .f32 := Host.absf main_arg18
  let main_cst_34 : FVec F S_ .f32 := constant S_ .f32 0x7F800000#32
  let main_v90 : FVec F S1000x32 .f32 := broadcastInDim S1000x32 ![] bcast_S_S1000x32 main_cst_34
  let main_v91 : IVec S1000x32 1 := cmpf .olt main_v89 main_v90
  let main_c_35 : IVec S_ 1 := constantI S_ 1 1#1
  let main_v92 : IVec S_ 1 := (fun x v => Host.reduce IntOp.andi x v reducesTo_S1000x32_S_d0_1 h_S_) main_v91 main_c_35
  let main_v93 : IVec S_ 1 := andi main_v88 main_v92
  main_v93

def fn_part4 {F : FTy → Type} [FloatOps F] (main_arg14 : FVec F S32x32 .f32) (main_arg15 : FVec F S32 .f32) (main_arg16 : FVec F S32x32 .f32) (main_arg17 : FVec F S32 .f32) (main_arg18 : FVec F S1000x32 .f32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg16
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S16 .f32) (main_arg12 : FVec F S32x16 .f32) (main_arg13 : FVec F S32 .f32) (main_arg14 : FVec F S32x32 .f32) (main_arg15 : FVec F S32 .f32) (main_arg16 : FVec F S32x32 .f32) (main_arg17 : FVec F S32 .f32) (main_arg18 : FVec F S1000x32 .f32) (main_v48 : IVec S_ 1) (main_v49 : FVec F S16x8 .f32) (main_v50 : FVec F S16x8 .f32) : IVec S_ 1 :=
  let main_v51 : IVec S16x8 1 := cmpf .olt main_v49 main_v50
  let main_c_19 : IVec S_ 1 := constantI S_ 1 1#1
  let main_v52 : IVec S_ 1 := (fun x v => Host.reduce IntOp.andi x v reducesTo_S16x8_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S32x16 .f32 := Host.absf main_arg12
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_v63 main_v67

def fn_part2 {F : FTy → Type} [FloatOps F] (main_arg7 : FVec F S8 .f32) (main_arg8 : FVec F S8x8 .f32) (main_arg9 : FVec F S8 .f32) (main_arg10 : FVec F S16x8 .f32) (main_arg11 : FVec F S16 .f32) (main_arg12 : FVec F S32x16 .f32) (main_arg13 : FVec F S32 .f32) (main_arg14 : FVec F S32x32 .f32) (main_arg15 : FVec F S32 .f32) (main_arg16 : FVec F S32x32 .f32) (main_arg17 : FVec F S32 .f32) (main_arg18 : FVec F S1000x32 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x8 .f32 := Host.absf main_arg8
  let main_cst_14 : FVec F S_ .f32 := constant S_ .f32 0x7F800000#32
  let main_v40 : FVec F S8x8 .f32 := broadcastInDim S8x8 ![] bcast_S_S8x8 main_cst_14
  let main_v41 : IVec S8x8 1 := cmpf .olt main_v39 main_v40
  let main_c_15 : IVec S_ 1 := constantI S_ 1 1#1
  let main_v42 : IVec S_ 1 := (fun x v => Host.reduce IntOp.andi x v reducesTo_S8x8_S_d0_1 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S16x8 .f32 := Host.absf main_arg10
  let main_cst_18 : FVec F S_ .f32 := constant S_ .f32 0x7F800000#32
  let main_v50 : FVec F S16x8 .f32 := broadcastInDim S16x8 ![] bcast_S_S16x8 main_cst_18
  fn_part3 (F := F) main_arg11 main_arg12 main_arg13 main_arg14 main_arg15 main_arg16 main_arg17 main_arg18 main_v48 main_v49 main_v50

def fn_part1 {F : FTy → Type} [FloatOps F] (main_arg4 : FVec F S8x2 .f32) (main_arg5 : FVec F S8 .f32) (main_arg6 : FVec F S8x8 .f32) (main_arg7 : FVec F S8 .f32) (main_arg8 : FVec F S8x8 .f32) (main_arg9 : FVec F S8 .f32) (main_arg10 : FVec F S16x8 .f32) (main_arg11 : FVec F S16 .f32) (main_arg12 : FVec F S32x16 .f32) (main_arg13 : FVec F S32 .f32) (main_arg14 : FVec F S32x32 .f32) (main_arg15 : FVec F S32 .f32) (main_arg16 : FVec F S32x32 .f32) (main_arg17 : FVec F S32 .f32) (main_arg18 : FVec F S1000x32 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S8x2 .f32 := Host.absf main_arg4
  let main_cst_6 : FVec F S_ .f32 := constant S_ .f32 0x7F800000#32
  let main_v20 : FVec F S8x2 .f32 := broadcastInDim S8x2 ![] bcast_S_S8x2 main_cst_6
  let main_v21 : IVec S8x2 1 := cmpf .olt main_v19 main_v20
  let main_c_7 : IVec S_ 1 := constantI S_ 1 1#1
  let main_v22 : IVec S_ 1 := (fun x v => Host.reduce IntOp.andi x v reducesTo_S8x2_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x8 .f32 := Host.absf main_arg6
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S100000x1 .f32) (main_arg1 : FVec F S1000 .f32) (main_arg2 : FVec F S2x1 .f32) (main_arg3 : FVec F S2 .f32) (main_arg4 : FVec F S8x2 .f32) (main_arg5 : FVec F S8 .f32) (main_arg6 : FVec F S8x8 .f32) (main_arg7 : FVec F S8 .f32) (main_arg8 : FVec F S8x8 .f32) (main_arg9 : FVec F S8 .f32) (main_arg10 : FVec F S16x8 .f32) (main_arg11 : FVec F S16 .f32) (main_arg12 : FVec F S32x16 .f32) (main_arg13 : FVec F S32 .f32) (main_arg14 : FVec F S32x32 .f32) (main_arg15 : FVec F S32 .f32) (main_arg16 : FVec F S32x32 .f32) (main_arg17 : FVec F S32 .f32) (main_arg18 : FVec F S1000x32 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1000 .f32 := Host.absf main_arg1
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_v9 : FVec F S2x1 .f32 := Host.absf main_arg2
  let main_cst_2 : FVec F S_ .f32 := constant S_ .f32 0x7F800000#32
  let main_v10 : FVec F S2x1 .f32 := broadcastInDim S2x1 ![] bcast_S_S2x1 main_cst_2
  let main_v11 : IVec S2x1 1 := cmpf .olt main_v9 main_v10
  let main_c_3 : IVec S_ 1 := constantI S_ 1 1#1
  let main_v12 : IVec S_ 1 := (fun x v => Host.reduce IntOp.andi x v reducesTo_S2x1_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S100000x1 : Shape := ⟨2, ![100000, 1]⟩
abbrev S1000 : Shape := ⟨1, ![1000]⟩
abbrev S2x1 : Shape := ⟨2, ![2, 1]⟩
abbrev S2 : Shape := ⟨1, ![2]⟩
abbrev S8x2 : Shape := ⟨2, ![8, 2]⟩
abbrev S8 : Shape := ⟨1, ![8]⟩
abbrev S8x8 : Shape := ⟨2, ![8, 8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S32x32 : Shape := ⟨2, ![32, 32]⟩
abbrev S1000x32 : Shape := ⟨2, ![1000, 32]⟩
abbrev S100000x1000 : Shape := ⟨2, ![100000, 1000]⟩
abbrev S4000x1 : Shape := ⟨2, ![4000, 1]⟩
abbrev S4000x1000 : Shape := ⟨2, ![4000, 1000]⟩
abbrev S1x4000 : Shape := ⟨2, ![1, 4000]⟩
abbrev S2x4000 : Shape := ⟨2, ![2, 4000]⟩
abbrev S8x4000 : Shape := ⟨2, ![8, 4000]⟩
abbrev S8x1 : Shape := ⟨2, ![8, 1]⟩
abbrev S16x4000 : Shape := ⟨2, ![16, 4000]⟩
abbrev S16x1 : Shape := ⟨2, ![16, 1]⟩
abbrev S32x4000 : Shape := ⟨2, ![32, 4000]⟩
abbrev S32x1 : Shape := ⟨2, ![32, 1]⟩
abbrev S4000x32 : Shape := ⟨2, ![4000, 32]⟩
abbrev S32x1000 : Shape := ⟨2, ![32, 1000]⟩
abbrev S1x1000 : Shape := ⟨2, ![1, 1000]⟩
abbrev S100000x1x1000 : Shape := ⟨3, ![100000, 1, 1000]⟩

abbrev nBuf : Space → Nat
  | .hbm => 21
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S1000, .f32⟩
  | .hbm, ⟨2, _⟩ => ⟨S2x1, .f32⟩
  | .hbm, ⟨3, _⟩ => ⟨S2, .f32⟩
  | .hbm, ⟨4, _⟩ => ⟨S8x2, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x8, .f32⟩
  | .hbm, ⟨9, _⟩ => ⟨S8, .f32⟩
  | .hbm, ⟨10, _⟩ => ⟨S16x8, .f32⟩
  | .hbm, ⟨11, _⟩ => ⟨S16, .f32⟩
  | .hbm, ⟨12, _⟩ => ⟨S32x16, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S32, .f32⟩
  | .hbm, ⟨18, _⟩ => ⟨S1000x32, .f32⟩
  | .hbm, ⟨19, _⟩ => ⟨S100000x1000, .f32⟩
  | .hbm, ⟨20, _⟩ => ⟨S100000x1x1000, .f32⟩
  | .local _ .vmem, ⟨0, _⟩ => ⟨S4000x1, .f32⟩
  | .local _ .vmem, ⟨1, _⟩ => ⟨S4000x1, .f32⟩
  | .local _ .vmem, ⟨2, _⟩ => ⟨S1000, .f32⟩
  | .local _ .vmem, ⟨3, _⟩ => ⟨S2x1, .f32⟩
  | .local _ .vmem, ⟨4, _⟩ => ⟨S2, .f32⟩
  | .local _ .vmem, ⟨5, _⟩ => ⟨S8x2, .f32⟩
  | .local _ .vmem, ⟨6, _⟩ => ⟨S8, .f32⟩
  | .local _ .vmem, ⟨7, _⟩ => ⟨S8x8, .f32⟩
  | .local _ .vmem, ⟨8, _⟩ => ⟨S8, .f32⟩
  | .local _ .vmem, ⟨9, _⟩ => ⟨S8x8, .f32⟩
  | .local _ .vmem, ⟨10, _⟩ => ⟨S8, .f32⟩
  | .local _ .vmem, ⟨11, _⟩ => ⟨S16x8, .f32⟩
  | .local _ .vmem, ⟨12, _⟩ => ⟨S16, .f32⟩
  | .local _ .vmem, ⟨13, _⟩ => ⟨S32x16, .f32⟩
  | .local _ .vmem, ⟨14, _⟩ => ⟨S32, .f32⟩
  | .local _ .vmem, ⟨15, _⟩ => ⟨S32x32, .f32⟩
  | .local _ .vmem, ⟨16, _⟩ => ⟨S32, .f32⟩
  | .local _ .vmem, ⟨17, _⟩ => ⟨S32x32, .f32⟩
  | .local _ .vmem, ⟨18, _⟩ => ⟨S32, .f32⟩
  | .local _ .vmem, ⟨19, _⟩ => ⟨S1000x32, .f32⟩
  | .local _ .vmem, ⟨20, _⟩ => ⟨S4000x1000, .f32⟩
  | .local _ .vmem, ⟨21, _⟩ => ⟨S4000x1000, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1000x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4000x1000 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S4000x1_S4000x1_0_0 : ∀ a, (![0, 0] : Fin 2 → Nat) a + S4000x1.size a ≤ S4000x1.size a
  h_S4000x1 : 0 < S4000x1.numel
  transposes_S4000x1_p1_0_S1x4000 : S4000x1.Transposes [1, 0] S1x4000
  inb_S2x1_S2x1_0_0 : ∀ a, (![0, 0] : Fin 2 → Nat) a + S2x1.size a ≤ S2x1.size a
  h_S2x1 : 0 < S2x1.numel
  inb_S2_S2_0 : ∀ a, (![0] : Fin 1 → Nat) a + S2.size a ≤ S2.size a
  h_S2 : 0 < S2.numel
  shapeCasts_S2_S2x1 : S2.ShapeCasts S2x1
  broadcasts_S2x1_S2x4000 : S2x1.Broadcasts S2x4000
  inb_S8x2_S8x2_0_0 : ∀ a, (![0, 0] : Fin 2 → Nat) a + S8x2.size a ≤ S8x2.size a
  h_S8x2 : 0 < S8x2.numel
  inb_S8_S8_0 : ∀ a, (![0] : Fin 1 → Nat) a + S8.size a ≤ S8.size a
  h_S8 : 0 < S8.numel
  shapeCasts_S8_S8x1 : S8.ShapeCasts S8x1
  broadcasts_S8x1_S8x4000 : S8x1.Broadcasts S8x4000
  inb_S8x8_S8x8_0_0 : ∀ a, (![0, 0] : Fin 2 → Nat) a + S8x8.size a ≤ S8x8.size a
  h_S8x8 : 0 < S8x8.numel
  inb_S16x8_S16x8_0_0 : ∀ a, (![0, 0] : Fin 2 → Nat) a + S16x8.size a ≤ S16x8.size a
  h_S16x8 : 0 < S16x8.numel
  inb_S16_S16_0 : ∀ a, (![0] : Fin 1 → Nat) a + S16.size a ≤ S16.size a
  h_S16 : 0 < S16.numel
  shapeCasts_S16_S16x1 : S16.ShapeCasts S16x1
  broadcasts_S16x1_S16x4000 : S16x1.Broadcasts S16x4000
  inb_S32x16_S32x16_0_0 : ∀ a, (![0, 0] : Fin 2 → Nat) a + S32x16.size a ≤ S32x16.size a
  h_S32x16 : 0 < S32x16.numel
  inb_S32_S32_0 : ∀ a, (![0] : Fin 1 → Nat) a + S32.size a ≤ S32.size a
  h_S32 : 0 < S32.numel
  shapeCasts_S32_S32x1 : S32.ShapeCasts S32x1
  broadcasts_S32x1_S32x4000 : S32x1.Broadcasts S32x4000
  inb_S32x32_S32x32_0_0 : ∀ a, (![0, 0] : Fin 2 → Nat) a + S32x32.size a ≤ S32x32.size a
  h_S32x32 : 0 < S32x32.numel
  transposes_S32x4000_p1_0_S4000x32 : S32x4000.Transposes [1, 0] S4000x32
  inb_S1000x32_S1000x32_0_0 : ∀ a, (![0, 0] : Fin 2 → Nat) a + S1000x32.size a ≤ S1000x32.size a
  h_S1000x32 : 0 < S1000x32.numel
  transposes_S1000x32_p1_0_S32x1000 : S1000x32.Transposes [1, 0] S32x1000
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S4000x1000 : S1x1000.Broadcasts S4000x1000
  inb_S4000x1000_S4000x1000_0_0 : ∀ a, (![0, 0] : Fin 2 → Nat) a + S4000x1000.size a ≤ S4000x1000.size a
  h_S4000x1000 : 0 < S4000x1000.numel
  shapeCasts_S100000x1000_S100000x1x1000 : S100000x1000.ShapeCasts S100000x1x1000
  dot_S2x1_S1x4000_S2x4000_1_0_0_1_n_n_wf : DotDims.WF S2x1 S1x4000 S2x4000 [1] [0] [0] [1] [] []
  dot_S8x2_S2x4000_S8x4000_1_0_0_1_n_n_wf : DotDims.WF S8x2 S2x4000 S8x4000 [1] [0] [0] [1] [] []
  dot_S8x8_S8x4000_S8x4000_1_0_0_1_n_n_wf : DotDims.WF S8x8 S8x4000 S8x4000 [1] [0] [0] [1] [] []
  dot_S16x8_S8x4000_S16x4000_1_0_0_1_n_n_wf : DotDims.WF S16x8 S8x4000 S16x4000 [1] [0] [0] [1] [] []
  dot_S32x16_S16x4000_S32x4000_1_0_0_1_n_n_wf : DotDims.WF S32x16 S16x4000 S32x4000 [1] [0] [0] [1] [] []
  dot_S32x32_S32x4000_S32x4000_1_0_0_1_n_n_wf : DotDims.WF S32x32 S32x4000 S32x4000 [1] [0] [0] [1] [] []
  dot_S4000x32_S32x1000_S4000x1000_1_0_0_1_n_n_wf : DotDims.WF S4000x32 S32x1000 S4000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000.size a ≤ S1000.size a
  hwx0_1 : ∀ i : grid0.Coords, EltTy.bits .f32 = 32 ∨ (Rect.block (s := S1000) S1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1.size a ≤ S2x1.size a
  hwx0_2 : ∀ i : grid0.Coords, EltTy.bits .f32 = 32 ∨ (Rect.block (s := S2x1) S2x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S8x2.size a
  hwx0_4 : ∀ i : grid0.Coords, EltTy.bits .f32 = 32 ∨ (Rect.block (s := S8x2) S8x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x8.size a ≤ S8x8.size a
  hwx0_6 : ∀ i : grid0.Coords, EltTy.bits .f32 = 32 ∨ (Rect.block (s := S8x8) S8x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x8.size a ≤ S8x8.size a
  hwx0_8 : ∀ i : grid0.Coords, EltTy.bits .f32 = 32 ∨ (Rect.block (s := S8x8) S8x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x8.size a ≤ S16x8.size a
  hwx0_10 : ∀ i : grid0.Coords, EltTy.bits .f32 = 32 ∨ (Rect.block (s := S16x8) S16x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16.size a ≤ S16.size a
  hwx0_11 : ∀ i : grid0.Coords, EltTy.bits .f32 = 32 ∨ (Rect.block (s := S16) S16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x16.size a ≤ S32x16.size a
  hwx0_12 : ∀ i : grid0.Coords, EltTy.bits .f32 = 32 ∨ (Rect.block (s := S32x16) S32x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x32.size a ≤ S32x32.size a
  hwx0_14 : ∀ i : grid0.Coords, EltTy.bits .f32 = 32 ∨ (Rect.block (s := S32x32) S32x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x32.size a ≤ S32x32.size a
  hwx0_16 : ∀ i : grid0.Coords, EltTy.bits .f32 = 32 ∨ (Rect.block (s := S32x32) S32x32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32.size a ≤ S32.size a
  hwx0_17 : ∀ i : grid0.Coords, EltTy.bits .f32 = 32 ∨ (Rect.block (s := S32) S32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1000x32.size a ≤ S1000x32.size a
  hwx0_18 : ∀ i : grid0.Coords, EltTy.bits .f32 = 32 ∨ (Rect.block (s := S1000x32) S1000x32.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4000x1000.size a ≤ S100000x1000.size a
  hwx0_19 : ∀ i : grid0.Coords, EltTy.bits .f32 = 32 ∨ (Rect.block (s := S100000x1000) S4000x1000.size (cc0_transform_19 i) (hinb0_19 i)).WholeWords (EltTy.packing .f32)

variable [Facts₀]

def dot_S2x1_S1x4000_S2x4000_1_0_0_1_n_n : DotDims S2x1 S1x4000 S2x4000 where
  lhsContracting := [1]
  rhsContracting := [0]
  lhsNonContracting := [0]
  rhsNonContracting := [1]
  lhsBatch := []
  rhsBatch := []
  wf := dot_S2x1_S1x4000_S2x4000_1_0_0_1_n_n_wf
def dot_S8x2_S2x4000_S8x4000_1_0_0_1_n_n : DotDims S8x2 S2x4000 S8x4000 where
  lhsContracting := [1]
  rhsContracting := [0]
  lhsNonContracting := [0]
  rhsNonContracting := [1]
  lhsBatch := []
  rhsBatch := []
  wf := dot_S8x2_S2x4000_S8x4000_1_0_0_1_n_n_wf
def dot_S8x8_S8x4000_S8x4000_1_0_0_1_n_n : DotDims S8x8 S8x4000 S8x4000 where
  lhsContracting := [1]
  rhsContracting := [0]
  lhsNonContracting := [0]
  rhsNonContracting := [1]
  lhsBatch := []
  rhsBatch := []
  wf := dot_S8x8_S8x4000_S8x4000_1_0_0_1_n_n_wf
def dot_S16x8_S8x4000_S16x4000_1_0_0_1_n_n : DotDims S16x8 S8x4000 S16x4000 where
  lhsContracting := [1]
  rhsContracting := [0]
  lhsNonContracting := [0]
  rhsNonContracting := [1]
  lhsBatch := []
  rhsBatch := []
  wf := dot_S16x8_S8x4000_S16x4000_1_0_0_1_n_n_wf
def dot_S32x16_S16x4000_S32x4000_1_0_0_1_n_n : DotDims S32x16 S16x4000 S32x4000 where
  lhsContracting := [1]
  rhsContracting := [0]
  lhsNonContracting := [0]
  rhsNonContracting := [1]
  lhsBatch := []
  rhsBatch := []
  wf := dot_S32x16_S16x4000_S32x4000_1_0_0_1_n_n_wf
def dot_S32x32_S32x4000_S32x4000_1_0_0_1_n_n : DotDims S32x32 S32x4000 S32x4000 where
  lhsContracting := [1]
  rhsContracting := [0]
  lhsNonContracting := [0]
  rhsNonContracting := [1]
  lhsBatch := []
  rhsBatch := []
  wf := dot_S32x32_S32x4000_S32x4000_1_0_0_1_n_n_wf
def dot_S4000x32_S32x1000_S4000x1000_1_0_0_1_n_n : DotDims S4000x32 S32x1000 S4000x1000 where
  lhsContracting := [1]
  rhsContracting := [0]
  lhsNonContracting := [0]
  rhsNonContracting := [1]
  lhsBatch := []
  rhsBatch := []
  wf := dot_S4000x32_S32x1000_S4000x1000_1_0_0_1_n_n_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S32x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S32x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1000x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0) S4000x1000.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S100000x1 : Shape := ⟨2, ![100000, 1]⟩
abbrev S1000 : Shape := ⟨1, ![1000]⟩
abbrev S2x1 : Shape := ⟨2, ![2, 1]⟩
abbrev S2 : Shape := ⟨1, ![2]⟩
abbrev S8x2 : Shape := ⟨2, ![8, 2]⟩
abbrev S8 : Shape := ⟨1, ![8]⟩
abbrev S8x8 : Shape := ⟨2, ![8, 8]⟩
abbrev S16x8 : Shape := ⟨2, ![16, 8]⟩
abbrev S16 : Shape := ⟨1, ![16]⟩
abbrev S32x16 : Shape := ⟨2, ![32, 16]⟩
abbrev S32 : Shape := ⟨1, ![32]⟩
abbrev S32x32 : Shape := ⟨2, ![32, 32]⟩
abbrev S1000x32 : Shape := ⟨2, ![1000, 32]⟩
abbrev S1x2 : Shape := ⟨2, ![1, 2]⟩
abbrev S100000x2 : Shape := ⟨2, ![100000, 2]⟩
abbrev S_ : Shape := ⟨0, ![]⟩
abbrev S2x8 : Shape := ⟨2, ![2, 8]⟩
abbrev S100000x8 : Shape := ⟨2, ![100000, 8]⟩
abbrev S1x8 : Shape := ⟨2, ![1, 8]⟩
abbrev S8x16 : Shape := ⟨2, ![8, 16]⟩
abbrev S100000x16 : Shape := ⟨2, ![100000, 16]⟩
abbrev S1x16 : Shape := ⟨2, ![1, 16]⟩
abbrev S16x32 : Shape := ⟨2, ![16, 32]⟩
abbrev S100000x32 : Shape := ⟨2, ![100000, 32]⟩
abbrev S1x32 : Shape := ⟨2, ![1, 32]⟩
abbrev S32x1000 : Shape := ⟨2, ![32, 1000]⟩
abbrev S100000x1000 : Shape := ⟨2, ![100000, 1000]⟩
abbrev S1x1000 : Shape := ⟨2, ![1, 1000]⟩
abbrev S100000x1x1000 : Shape := ⟨3, ![100000, 1, 1000]⟩

abbrev nBuf : Space → Nat
  | .hbm => 185
  | .vmem => 0
  | .smem => 0
  | _ => 0

abbrev hbmTy0_0 (i : Nat) : BufTy := match i % 128 with
  | 0 => ⟨S100000x1, .f32⟩
  | 1 => ⟨S1000, .f32⟩
  | 2 => ⟨S2x1, .f32⟩
  | 3 => ⟨S2, .f32⟩
  | 4 => ⟨S8x2, .f32⟩
  | 5 => ⟨S8, .f32⟩
  | 6 => ⟨S8x8, .f32⟩
  | 7 => ⟨S8, .f32⟩
  | 8 => ⟨S8x8, .f32⟩
  | 9 => ⟨S8, .f32⟩
  | 10 => ⟨S16x8, .f32⟩
  | 11 => ⟨S16, .f32⟩
  | 12 => ⟨S32x16, .f32⟩
  | 13 => ⟨S32, .f32⟩
  | 14 => ⟨S32x32, .f32⟩
  | 15 => ⟨S32, .f32⟩
  | 16 => ⟨S32x32, .f32⟩
  | 17 => ⟨S32, .f32⟩
  | 18 => ⟨S1000x32, .f32⟩
  | 19 => ⟨S1x2, .f32⟩
  | 20 => ⟨S100000x2, .f32⟩
  | 21 => ⟨S1x2, .f32⟩
  | 22 => ⟨S100000x2, .f32⟩
  | 23 => ⟨S100000x2, .f32⟩
  | 24 => ⟨S_, .f32⟩
  | 25 => ⟨S100000x2, .f32⟩
  | 26 => ⟨S100000x2, .i1⟩
  | 27 => ⟨S_, .f32⟩
  | 28 => ⟨S100000x2, .f32⟩
  | 29 => ⟨S100000x2, .i1⟩
  | 30 => ⟨S_, .f32⟩
  | 31 => ⟨S_, .f32⟩
  | 32 => ⟨S100000x2, .f32⟩
  | 33 => ⟨S100000x2, .f32⟩
  | 34 => ⟨S100000x2, .f32⟩
  | 35 => ⟨S_, .f32⟩
  | 36 => ⟨S100000x2, .f32⟩
  | 37 => ⟨S100000x2, .f32⟩
  | 38 => ⟨S100000x2, .f32⟩
  | 39 => ⟨S2x8, .f32⟩
  | 40 => ⟨S100000x8, .f32⟩
  | 41 => ⟨S1x8, .f32⟩
  | 42 => ⟨S100000x8, .f32⟩
  | 43 => ⟨S100000x8, .f32⟩
  | 44 => ⟨S_, .f32⟩
  | 45 => ⟨S100000x8, .f32⟩
  | 46 => ⟨S100000x8, .i1⟩
  | 47 => ⟨S_, .f32⟩
  | 48 => ⟨S100000x8, .f32⟩
  | 49 => ⟨S100000x8, .i1⟩
  | 50 => ⟨S_, .f32⟩
  | 51 => ⟨S_, .f32⟩
  | 52 => ⟨S100000x8, .f32⟩
  | 53 => ⟨S100000x8, .f32⟩
  | 54 => ⟨S100000x8, .f32⟩
  | 55 => ⟨S_, .f32⟩
  | 56 => ⟨S100000x8, .f32⟩
  | 57 => ⟨S100000x8, .f32⟩
  | 58 => ⟨S100000x8, .f32⟩
  | 59 => ⟨S8x8, .f32⟩
  | 60 => ⟨S100000x8, .f32⟩
  | 61 => ⟨S1x8, .f32⟩
  | 62 => ⟨S100000x8, .f32⟩
  | 63 => ⟨S100000x8, .f32⟩
  | 64 => ⟨S_, .f32⟩
  | 65 => ⟨S100000x8, .f32⟩
  | 66 => ⟨S100000x8, .i1⟩
  | 67 => ⟨S_, .f32⟩
  | 68 => ⟨S100000x8, .f32⟩
  | 69 => ⟨S100000x8, .i1⟩
  | 70 => ⟨S_, .f32⟩
  | 71 => ⟨S_, .f32⟩
  | 72 => ⟨S100000x8, .f32⟩
  | 73 => ⟨S100000x8, .f32⟩
  | 74 => ⟨S100000x8, .f32⟩
  | 75 => ⟨S_, .f32⟩
  | 76 => ⟨S100000x8, .f32⟩
  | 77 => ⟨S100000x8, .f32⟩
  | 78 => ⟨S100000x8, .f32⟩
  | 79 => ⟨S8x8, .f32⟩
  | 80 => ⟨S100000x8, .f32⟩
  | 81 => ⟨S1x8, .f32⟩
  | 82 => ⟨S100000x8, .f32⟩
  | 83 => ⟨S100000x8, .f32⟩
  | 84 => ⟨S_, .f32⟩
  | 85 => ⟨S100000x8, .f32⟩
  | 86 => ⟨S100000x8, .i1⟩
  | 87 => ⟨S_, .f32⟩
  | 88 => ⟨S100000x8, .f32⟩
  | 89 => ⟨S100000x8, .i1⟩
  | 90 => ⟨S_, .f32⟩
  | 91 => ⟨S_, .f32⟩
  | 92 => ⟨S100000x8, .f32⟩
  | 93 => ⟨S100000x8, .f32⟩
  | 94 => ⟨S100000x8, .f32⟩
  | 95 => ⟨S_, .f32⟩
  | 96 => ⟨S100000x8, .f32⟩
  | 97 => ⟨S100000x8, .f32⟩
  | 98 => ⟨S100000x8, .f32⟩
  | 99 => ⟨S8x16, .f32⟩
  | 100 => ⟨S100000x16, .f32⟩
  | 101 => ⟨S1x16, .f32⟩
  | 102 => ⟨S100000x16, .f32⟩
  | 103 => ⟨S100000x16, .f32⟩
  | 104 => ⟨S_, .f32⟩
  | 105 => ⟨S100000x16, .f32⟩
  | 106 => ⟨S100000x16, .i1⟩
  | 107 => ⟨S_, .f32⟩
  | 108 => ⟨S100000x16, .f32⟩
  | 109 => ⟨S100000x16, .i1⟩
  | 110 => ⟨S_, .f32⟩
  | 111 => ⟨S_, .f32⟩
  | 112 => ⟨S100000x16, .f32⟩
  | 113 => ⟨S100000x16, .f32⟩
  | 114 => ⟨S100000x16, .f32⟩
  | 115 => ⟨S_, .f32⟩
  | 116 => ⟨S100000x16, .f32⟩
  | 117 => ⟨S100000x16, .f32⟩
  | 118 => ⟨S100000x16, .f32⟩
  | 119 => ⟨S16x32, .f32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .i1⟩
  | 127 => ⟨S_, .f32⟩
  | _ => ⟨S100000x1, .f32⟩

abbrev hbmTy0_1 (i : Nat) : BufTy := match i % 128 with
  | 0 => ⟨S100000x32, .f32⟩
  | 1 => ⟨S100000x32, .i1⟩
  | 2 => ⟨S_, .f32⟩
  | 3 => ⟨S_, .f32⟩
  | 4 => ⟨S100000x32, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S100000x32, .f32⟩
  | 11 => ⟨S32x32, .f32⟩
  | 12 => ⟨S100000x32, .f32⟩
  | 13 => ⟨S1x32, .f32⟩
  | 14 => ⟨S100000x32, .f32⟩
  | 15 => ⟨S100000x32, .f32⟩
  | 16 => ⟨S_, .f32⟩
  | 17 => ⟨S100000x32, .f32⟩
  | 18 => ⟨S100000x32, .i1⟩
  | 19 => ⟨S_, .f32⟩
  | 20 => ⟨S100000x32, .f32⟩
  | 21 => ⟨S100000x32, .i1⟩
  | 22 => ⟨S_, .f32⟩
  | 23 => ⟨S_, .f32⟩
  | 24 => ⟨S100000x32, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S100000x32, .f32⟩
  | 31 => ⟨S32x32, .f32⟩
  | 32 => ⟨S100000x32, .f32⟩
  | 33 => ⟨S1x32, .f32⟩
  | 34 => ⟨S100000x32, .f32⟩
  | 35 => ⟨S100000x32, .f32⟩
  | 36 => ⟨S_, .f32⟩
  | 37 => ⟨S100000x32, .f32⟩
  | 38 => ⟨S100000x32, .i1⟩
  | 39 => ⟨S_, .f32⟩
  | 40 => ⟨S100000x32, .f32⟩
  | 41 => ⟨S100000x32, .i1⟩
  | 42 => ⟨S_, .f32⟩
  | 43 => ⟨S_, .f32⟩
  | 44 => ⟨S100000x32, .f32⟩
  | 45 => ⟨S100000x32, .f32⟩
  | 46 => ⟨S100000x32, .f32⟩
  | 47 => ⟨S_, .f32⟩
  | 48 => ⟨S100000x32, .f32⟩
  | 49 => ⟨S100000x32, .f32⟩
  | 50 => ⟨S100000x32, .f32⟩
  | 51 => ⟨S32x1000, .f32⟩
  | 52 => ⟨S100000x1000, .f32⟩
  | 53 => ⟨S1x1000, .f32⟩
  | 54 => ⟨S100000x1000, .f32⟩
  | 55 => ⟨S100000x1000, .f32⟩
  | 56 => ⟨S100000x1x1000, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_cst_1 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v4 : Ref sig .tc := ⟨.hbm, 33, rfl⟩
abbrev main_call0_v5 : Ref sig .tc := ⟨.hbm, 34, rfl⟩
abbrev main_call0_cst_2 : Ref sig .tc := ⟨.hbm, 35, rfl⟩
abbrev main_call0_v6 : Ref sig .tc := ⟨.hbm, 36, rfl⟩
abbrev main_call0_v7 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_cst_1 : Ref sig .tc := ⟨.hbm, 50, rfl⟩
abbrev main_call1_call0_v0 : Ref sig .tc := ⟨.hbm, 51, rfl⟩
abbrev main_call1_call0_v1 : Ref sig .tc := ⟨.hbm, 52, rfl⟩
abbrev main_call1_v4 : Ref sig .tc := ⟨.hbm, 53, rfl⟩
abbrev main_call1_v5 : Ref sig .tc := ⟨.hbm, 54, rfl⟩
abbrev main_call1_cst_2 : Ref sig .tc := ⟨.hbm, 55, rfl⟩
abbrev main_call1_v6 : Ref sig .tc := ⟨.hbm, 56, rfl⟩
abbrev main_call1_v7 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_cst_1 : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_v4 : Ref sig .tc := ⟨.hbm, 73, rfl⟩
abbrev main_call2_v5 : Ref sig .tc := ⟨.hbm, 74, rfl⟩
abbrev main_call2_cst_2 : Ref sig .tc := ⟨.hbm, 75, rfl⟩
abbrev main_call2_v6 : Ref sig .tc := ⟨.hbm, 76, rfl⟩
abbrev main_call2_v7 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_cst_0 : Ref sig .tc := ⟨.hbm, 87, rfl⟩
abbrev main_call3_v2 : Ref sig .tc := ⟨.hbm, 88, rfl⟩
abbrev main_call3_v3 : Ref sig .tc := ⟨.hbm, 89, rfl⟩
abbrev main_call3_cst_1 : Ref sig .tc := ⟨.hbm, 90, rfl⟩
abbrev main_call3_call0_v0 : Ref sig .tc := ⟨.hbm, 91, rfl⟩
abbrev main_call3_call0_v1 : Ref sig .tc := ⟨.hbm, 92, rfl⟩
abbrev main_call3_v4 : Ref sig .tc := ⟨.hbm, 93, rfl⟩
abbrev main_call3_v5 : Ref sig .tc := ⟨.hbm, 94, rfl⟩
abbrev main_call3_cst_2 : Ref sig .tc := ⟨.hbm, 95, rfl⟩
abbrev main_call3_v6 : Ref sig .tc := ⟨.hbm, 96, rfl⟩
abbrev main_call3_v7 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_call4_cst : Ref sig .tc := ⟨.hbm, 104, rfl⟩
abbrev main_call4_v0 : Ref sig .tc := ⟨.hbm, 105, rfl⟩
abbrev main_call4_v1 : Ref sig .tc := ⟨.hbm, 106, rfl⟩
abbrev main_call4_cst_0 : Ref sig .tc := ⟨.hbm, 107, rfl⟩
abbrev main_call4_v2 : Ref sig .tc := ⟨.hbm, 108, rfl⟩
abbrev main_call4_v3 : Ref sig .tc := ⟨.hbm, 109, rfl⟩
abbrev main_call4_cst_1 : Ref sig .tc := ⟨.hbm, 110, rfl⟩
abbrev main_call4_call0_v0 : Ref sig .tc := ⟨.hbm, 111, rfl⟩
abbrev main_call4_call0_v1 : Ref sig .tc := ⟨.hbm, 112, rfl⟩
abbrev main_call4_v4 : Ref sig .tc := ⟨.hbm, 113, rfl⟩
abbrev main_call4_v5 : Ref sig .tc := ⟨.hbm, 114, rfl⟩
abbrev main_call4_cst_2 : Ref sig .tc := ⟨.hbm, 115, rfl⟩
abbrev main_call4_v6 : Ref sig .tc := ⟨.hbm, 116, rfl⟩
abbrev main_call4_v7 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_call5_cst : Ref sig .tc := ⟨.hbm, 124, rfl⟩
abbrev main_call5_v0 : Ref sig .tc := ⟨.hbm, 125, rfl⟩
abbrev main_call5_v1 : Ref sig .tc := ⟨.hbm, 126, rfl⟩
abbrev main_call5_cst_0 : Ref sig .tc := ⟨.hbm, 127, rfl⟩
abbrev main_call5_v2 : Ref sig .tc := ⟨.hbm, 128, rfl⟩
abbrev main_call5_v3 : Ref sig .tc := ⟨.hbm, 129, rfl⟩
abbrev main_call5_cst_1 : Ref sig .tc := ⟨.hbm, 130, rfl⟩
abbrev main_call5_call0_v0 : Ref sig .tc := ⟨.hbm, 131, rfl⟩
abbrev main_call5_call0_v1 : Ref sig .tc := ⟨.hbm, 132, rfl⟩
abbrev main_call5_v4 : Ref sig .tc := ⟨.hbm, 133, rfl⟩
abbrev main_call5_v5 : Ref sig .tc := ⟨.hbm, 134, rfl⟩
abbrev main_call5_cst_2 : Ref sig .tc := ⟨.hbm, 135, rfl⟩
abbrev main_call5_v6 : Ref sig .tc := ⟨.hbm, 136, rfl⟩
abbrev main_call5_v7 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_call6_cst : Ref sig .tc := ⟨.hbm, 144, rfl⟩
abbrev main_call6_v0 : Ref sig .tc := ⟨.hbm, 145, rfl⟩
abbrev main_call6_v1 : Ref sig .tc := ⟨.hbm, 146, rfl⟩
abbrev main_call6_cst_0 : Ref sig .tc := ⟨.hbm, 147, rfl⟩
abbrev main_call6_v2 : Ref sig .tc := ⟨.hbm, 148, rfl⟩
abbrev main_call6_v3 : Ref sig .tc := ⟨.hbm, 149, rfl⟩
abbrev main_call6_cst_1 : Ref sig .tc := ⟨.hbm, 150, rfl⟩
abbrev main_call6_call0_v0 : Ref sig .tc := ⟨.hbm, 151, rfl⟩
abbrev main_call6_call0_v1 : Ref sig .tc := ⟨.hbm, 152, rfl⟩
abbrev main_call6_v4 : Ref sig .tc := ⟨.hbm, 153, rfl⟩
abbrev main_call6_v5 : Ref sig .tc := ⟨.hbm, 154, rfl⟩
abbrev main_call6_cst_2 : Ref sig .tc := ⟨.hbm, 155, rfl⟩
abbrev main_call6_v6 : Ref sig .tc := ⟨.hbm, 156, rfl⟩
abbrev main_call6_v7 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_call7_cst : Ref sig .tc := ⟨.hbm, 164, rfl⟩
abbrev main_call7_v0 : Ref sig .tc := ⟨.hbm, 165, rfl⟩
abbrev main_call7_v1 : Ref sig .tc := ⟨.hbm, 166, rfl⟩
abbrev main_call7_cst_0 : Ref sig .tc := ⟨.hbm, 167, rfl⟩
abbrev main_call7_v2 : Ref sig .tc := ⟨.hbm, 168, rfl⟩
abbrev main_call7_v3 : Ref sig .tc := ⟨.hbm, 169, rfl⟩
abbrev main_call7_cst_1 : Ref sig .tc := ⟨.hbm, 170, rfl⟩
abbrev main_call7_call0_v0 : Ref sig .tc := ⟨.hbm, 171, rfl⟩
abbrev main_call7_call0_v1 : Ref sig .tc := ⟨.hbm, 172, rfl⟩
abbrev main_call7_v4 : Ref sig .tc := ⟨.hbm, 173, rfl⟩
abbrev main_call7_v5 : Ref sig .tc := ⟨.hbm, 174, rfl⟩
abbrev main_call7_cst_2 : Ref sig .tc := ⟨.hbm, 175, rfl⟩
abbrev main_call7_v6 : Ref sig .tc := ⟨.hbm, 176, rfl⟩
abbrev main_call7_v7 : Ref sig .tc := ⟨.hbm, 177, rfl⟩
abbrev main_v47 : Ref sig .tc := ⟨.hbm, 178, rfl⟩
abbrev main_v48 : Ref sig .tc := ⟨.hbm, 179, rfl⟩
abbrev main_v49 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩

abbrev nD : Nat := 1
abbrev τ : Topo := Topo.v7x

variable {F : FTy → Type} [FloatOps F]

class Facts₀ : Prop where
  transposes_S2x1_S1x2_1_0 : S2x1.Transposes [1, 0] S1x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  transposes_S8x2_S2x8_1_0 : S8x2.Transposes [1, 0] S2x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  transposes_S8x8_S8x8_1_0 : S8x8.Transposes [1, 0] S8x8
  transposes_S16x8_S8x16_1_0 : S16x8.Transposes [1, 0] S8x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S32x32_S32x32_1_0 : S32x32.Transposes [1, 0] S32x32
  transposes_S1000x32_S32x1000_1_0 : S1000x32.Transposes [1, 0] S32x1000
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  shapeCasts_S100000x1000_S100000x1x1000 : S100000x1000.ShapeCasts S100000x1x1000
  dot_S100000x1_S1x2_S100000x2_1_0_0_1_n_n_wf : DotDims.WF S100000x1 S1x2 S100000x2 [1] [0] [0] [1] [] []
  dot_S100000x2_S2x8_S100000x8_1_0_0_1_n_n_wf : DotDims.WF S100000x2 S2x8 S100000x8 [1] [0] [0] [1] [] []
  dot_S100000x8_S8x8_S100000x8_1_0_0_1_n_n_wf : DotDims.WF S100000x8 S8x8 S100000x8 [1] [0] [0] [1] [] []
  dot_S100000x8_S8x16_S100000x16_1_0_0_1_n_n_wf : DotDims.WF S100000x8 S8x16 S100000x16 [1] [0] [0] [1] [] []
  dot_S100000x16_S16x32_S100000x32_1_0_0_1_n_n_wf : DotDims.WF S100000x16 S16x32 S100000x32 [1] [0] [0] [1] [] []
  dot_S100000x32_S32x32_S100000x32_1_0_0_1_n_n_wf : DotDims.WF S100000x32 S32x32 S100000x32 [1] [0] [0] [1] [] []
  dot_S100000x32_S32x1000_S100000x1000_1_0_0_1_n_n_wf : DotDims.WF S100000x32 S32x1000 S100000x1000 [1] [0] [0] [1] [] []

variable [Facts₀]

def dot_S100000x1_S1x2_S100000x2_1_0_0_1_n_n : DotDims S100000x1 S1x2 S100000x2 where
  lhsContracting := [1]
  rhsContracting := [0]
  lhsNonContracting := [0]
  rhsNonContracting := [1]
  lhsBatch := []
  rhsBatch := []
  wf := dot_S100000x1_S1x2_S100000x2_1_0_0_1_n_n_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1000_S100000x1000_1_0_0_1_n_n : DotDims S100000x32 S32x1000 S100000x1000 where
  lhsContracting := [1]
  rhsContracting := [0]
  lhsNonContracting := [0]
  rhsNonContracting := [1]
  lhsBatch := []
  rhsBatch := []
  wf := dot_S100000x32_S32x1000_S100000x1000_1_0_0_1_n_n_wf

class Facts : Prop extends Facts₀ where

variable [Facts]
-- ==== Proof.Mlp.lean ====
/-
  The decoder both programs compute, as a function of one input number and the weights.

  A row of the input holds one number x.  Eight dense layers follow, of widths 1 → 2 → 8 → 8 → 8 → 16 → 32 → 32 → 32:
  layer ℓ sends a vector h to  elu (W h + b),  entry o being  elu (∑ₖ W(o,k) · h(k) + b(o)),  where
  elu y = y for y > 0 and exp y − 1 otherwise.  The result of row r at point p is
  ∑ₖ hidden(x_r)(k) · W9(p,k) + init(p).  Everything is read on the extended reals, where the sum of a
  finite family and the products are the exact ones; no law beyond the commutativity of the product is
  needed to see the two programs agree, so no finiteness of the inputs is used.
-/
import Idealize.ShloMosaic.PureOps.Ideal
import Idealize.ShloMosaic.Lib.ValueIdx

noncomputable section

namespace Cert.Mlp

open Idealize.ShloMosaic Idealize.ShloMosaic.ValueIdx

/-- The exponential linear unit on the extended reals: y above zero, exp y − 1 otherwise (the comparison and
    the selection are the ideal values' own, so that −∞ goes to −1 and +∞ to +∞). -/
def elu (y : Ideal .f32) : Ideal .f32 :=
  Scalar.select (FloatOps.cmpf (F := Ideal) .ogt y (Scalar.ofBits (F := Ideal) .f32 0x00000000#32)) y
    (FloatOps.exp (F := Ideal) y - Scalar.ofBits (F := Ideal) .f32 0x3F800000#32)

/-- One dense layer on a vector: entry o is elu (∑ₖ W(o,k) · h(k) + b(o)). -/
def dense {K O : Nat} (W : Fin O → Fin K → Ideal .f32) (b : Fin O → Ideal .f32) (h : Fin K → Ideal .f32) :
    Fin O → Ideal .f32 :=
  fun o => elu ((∑ k : Fin K, W o k * h k) + b o)

/-- A weight matrix [O, K] as a function of its two coordinates. -/
def mat {O K : Nat} (W : FVec Ideal ⟨2, ![O, K]⟩ .f32) : Fin O → Fin K → Ideal .f32 := fun o k => W (ix2 o k)

/-- A bias vector [O] as a function of its coordinate. -/
def vec {O : Nat} (b : FVec Ideal ⟨1, ![O]⟩ .f32) : Fin O → Ideal .f32 := fun o => b (ix1 o)

/-- The eight hidden layers' weights and biases. -/
structure Weights where
  W1 : FVec Ideal ⟨2, ![2, 1]⟩ .f32
  b1 : FVec Ideal ⟨1, ![2]⟩ .f32
  W2 : FVec Ideal ⟨2, ![8, 2]⟩ .f32
  b2 : FVec Ideal ⟨1, ![8]⟩ .f32
  W3 : FVec Ideal ⟨2, ![8, 8]⟩ .f32
  b3 : FVec Ideal ⟨1, ![8]⟩ .f32
  W4 : FVec Ideal ⟨2, ![8, 8]⟩ .f32
  b4 : FVec Ideal ⟨1, ![8]⟩ .f32
  W5 : FVec Ideal ⟨2, ![16, 8]⟩ .f32
  b5 : FVec Ideal ⟨1, ![16]⟩ .f32
  W6 : FVec Ideal ⟨2, ![32, 16]⟩ .f32
  b6 : FVec Ideal ⟨1, ![32]⟩ .f32
  W7 : FVec Ideal ⟨2, ![32, 32]⟩ .f32
  b7 : FVec Ideal ⟨1, ![32]⟩ .f32
  W8 : FVec Ideal ⟨2, ![32, 32]⟩ .f32
  b8 : FVec Ideal ⟨1, ![32]⟩ .f32

/-- The activations after each of the eight layers, from the one input number x. -/
def act1 (w : Weights) (x : Ideal .f32) : Fin 2 → Ideal .f32 := dense (mat w.W1) (vec w.b1) (fun _ : Fin 1 => x)
def act2 (w : Weights) (x : Ideal .f32) : Fin 8 → Ideal .f32 := dense (mat w.W2) (vec w.b2) (act1 w x)
def act3 (w : Weights) (x : Ideal .f32) : Fin 8 → Ideal .f32 := dense (mat w.W3) (vec w.b3) (act2 w x)
def act4 (w : Weights) (x : Ideal .f32) : Fin 8 → Ideal .f32 := dense (mat w.W4) (vec w.b4) (act3 w x)
def act5 (w : Weights) (x : Ideal .f32) : Fin 16 → Ideal .f32 := dense (mat w.W5) (vec w.b5) (act4 w x)
def act6 (w : Weights) (x : Ideal .f32) : Fin 32 → Ideal .f32 := dense (mat w.W6) (vec w.b6) (act5 w x)
def act7 (w : Weights) (x : Ideal .f32) : Fin 32 → Ideal .f32 := dense (mat w.W7) (vec w.b7) (act6 w x)
def act8 (w : Weights) (x : Ideal .f32) : Fin 32 → Ideal .f32 := dense (mat w.W8) (vec w.b8) (act7 w x)

/-- The decoded value of row r at point p: ∑ₖ act8(x_r)(k) · W9(p,k) + init(p). -/
def depthAt (x : FVec Ideal ⟨2, ![100000, 1]⟩ .f32) (init : FVec Ideal ⟨1, ![1000]⟩ .f32) (w : Weights)
    (W9 : FVec Ideal ⟨2, ![1000, 32]⟩ .f32) (r : Fin 100000) (p : Fin 1000) : Ideal .f32 :=
  (∑ k : Fin 32, act8 w (x (ix2 r (0 : Fin 1))) k * W9 (ix2 p k)) + init (ix1 p)

/-- The whole result [100000, 1000] as one function of the argument arrays. -/
def depth (x : FVec Ideal ⟨2, ![100000, 1]⟩ .f32) (init : FVec Ideal ⟨1, ![1000]⟩ .f32) (w : Weights)
    (W9 : FVec Ideal ⟨2, ![1000, 32]⟩ .f32) : FVec Ideal ⟨2, ![100000, 1000]⟩ .f32 :=
  fun j => depthAt x init w W9 (j 0) (j 1)

theorem depth_apply (x : FVec Ideal ⟨2, ![100000, 1]⟩ .f32) (init : FVec Ideal ⟨1, ![1000]⟩ .f32) (w : Weights)
    (W9 : FVec Ideal ⟨2, ![1000, 32]⟩ .f32) (r : Fin 100000) (p : Fin 1000) :
    depth x init w W9 (ix2 r p) = depthAt x init w W9 r p := rfl

end Cert.Mlp

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibKeepdims.lean ====
/-
  Vectors re-laid around unit axes, read at an index, generic in the extents: a vector as a column ([a] as [a, 1]),
  a column repeated along its unit axis ([a, 1] as [a, b]), a vector under two leading unit axes and back
  ([a] as [1, 1, a]; [1, 1, a] as [a]), and a stack of single-row blocks flattened row-major ([g, 1, c] as [a, b]).
-/
import Idealize.ShloMosaic.Lib.Pipeline.Value
import Idealize.ShloMosaic.Lib.ValueIdx

namespace Cert.Layout

open Idealize.ShloMosaic Idealize.ShloMosaic.ValueIdx

variable {α : Type}

/-- An `[a]` vector cast to the column `[a, 1]` reads, at `(i, u)`, the operand at `i`. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(i, j)`, the column at `(i, 0)`. -/
theorem bcast_col {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a]` vector under two leading unit axes reads, at `(u, u', i)`, the operand at `i`. -/
theorem cast_lead2 {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']; omega)

/-- A `[1, 1, a]` vector with its unit axes dropped reads, at `i`, the operand at `(0, 0, i)`. -/
theorem cast_drop2 {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A stack `[g, 1, c]` of single-row blocks flattened row-major to `[a, b]`: entry `(r, s)` is entry `(t, 0, p)` of
    the stack whenever `r·b + s = t·c + p`. -/
theorem cast_stack {g c a b : ℕ} (x : (⟨3, ![g, 1, c]⟩ : Shape).Idx → α) (h : (⟨3, ![g, 1, c]⟩ : Shape).ShapeCasts ⟨2, ![a, b]⟩)
    (r : Fin a) (s : Fin b) (t : Fin g) (p : Fin c) (hrs : r.val * b + s.val = t.val * c + p.val) :
    shapeCast ⟨2, ![a, b]⟩ x h (ix2 r s) = x (ix3 t (0 : Fin 1) p) :=
  shapeCast_apply x h _ _ (by
    rw [Shape.rowMajor_val_three, Shape.rowMajor_val_two]
    show (t.val * 1 + 0) * c + p.val = r.val * b + s.val
    rw [Nat.mul_one, Nat.add_zero, hrs])

end Cert.Layout
-- ==== Proof.LibUnitAxes.lean ====
/-
  Vectors re-laid around a trailing unit axis, transposed, or joined along their last axis, read at an index; generic in
  the extents. A trailing unit axis added to or dropped from a matrix ([A, B] as [A, B, 1] and back), a vector as a
  column ([A] as [A, 1]), a matrix transposed ([A, B] as [B, A]), and two rank-3 vectors joined along the last axis
  (an entry of the joined vector is an entry of the first piece below its extent, of the second piece from there on).
-/
import Idealize.ShloMosaic.Lib.Pipeline.Value
import Idealize.ShloMosaic.Lib.ValueIdx

namespace Cert.UnitAxes

open Idealize.ShloMosaic Idealize.ShloMosaic.ValueIdx

variable {α : Type}

/-- [A, B] with a trailing unit axis: entry (a, b, 0) is entry (a, b). -/
theorem castAddLast {A B : Nat} (x : (⟨2, ![A, B]⟩ : Shape).Idx → α) (h : (⟨2, ![A, B]⟩ : Shape).ShapeCasts ⟨3, ![A, B, 1]⟩)
    (a : Fin A) (b : Fin B) (z : Fin 1) : shapeCast ⟨3, ![A, B, 1]⟩ x h (ix3 a b z) = x (ix2 a b) := by
  refine shapeCast_apply x h _ _ ?_
  rw [Shape.rowMajor_val_three, Shape.rowMajor_val_two]
  show a.val * B + b.val = (a.val * B + b.val) * 1 + z.val
  have hz : z.val = 0 := by have := z.isLt; omega
  rw [hz, Nat.mul_one, Nat.add_zero]

/-- [A, B, 1] with its trailing unit axis dropped: entry (a, b) is entry (a, b, 0). -/
theorem castDropLast {A B : Nat} (x : (⟨3, ![A, B, 1]⟩ : Shape).Idx → α) (h : (⟨3, ![A, B, 1]⟩ : Shape).ShapeCasts ⟨2, ![A, B]⟩)
    (a : Fin A) (b : Fin B) (z : Fin 1) : shapeCast ⟨2, ![A, B]⟩ x h (ix2 a b) = x (ix3 a b z) := by
  refine shapeCast_apply x h _ _ ?_
  rw [Shape.rowMajor_val_three, Shape.rowMajor_val_two]
  show (a.val * B + b.val) * 1 + z.val = a.val * B + b.val
  have hz : z.val = 0 := by have := z.isLt; omega
  rw [hz, Nat.mul_one, Nat.add_zero]

/-- [A] as the column [A, 1]: entry (a, 0) is entry a. -/
theorem castCol {A : Nat} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_two, Shape.rowMajor_val_one]
  show a.val = a.val * 1 + z.val
  have hz : z.val = 0 := by have := z.isLt; omega
  rw [hz, Nat.mul_one, Nat.add_zero]

/-- A matrix transposed: entry (b, a) of the transpose is entry (a, b). -/
theorem transpose2 {A B : Nat} (x : (⟨2, ![A, B]⟩ : Shape).Idx → α) (h : (⟨2, ![A, B]⟩ : Shape).Transposes [1, 0] ⟨2, ![B, A]⟩)
    (a : Fin A) (b : Fin B) : transpose ⟨2, ![B, A]⟩ [1, 0] x h (ix2 b a) = x (ix2 a b) := by
  refine transpose_apply [1, 0] x h _ _ fun d => ?_
  match d with
  | ⟨0, _⟩ => rfl
  | ⟨1, _⟩ => rfl

/-- Two rank-3 vectors joined along the last axis, read below the first piece's extent: the first piece there. -/
theorem concatLast_left {A B C₁ C₂ C : Nat} (x₁ : (⟨3, ![A, B, C₁]⟩ : Shape).Idx → α) (x₂ : (⟨3, ![A, B, C₂]⟩ : Shape).Idx → α)
    (h : Shape.Concatenates [⟨3, ![A, B, C₁]⟩, ⟨3, ![A, B, C₂]⟩] ⟨3, ![A, B, C]⟩ 2) (a : Fin A) (b : Fin B) (c : Fin C) (c₁ : Fin C₁)
    (hc : c₁.val = c.val) :
    concatenate ⟨3, ![A, B, C]⟩ 2 [⟨⟨3, ![A, B, C₁]⟩, x₁⟩, ⟨⟨3, ![A, B, C₂]⟩, x₂⟩] h (ix3 a b c) = x₁ (ix3 a b c₁) := by
  refine concatenate_pair_apply_left 2 x₁ x₂ h _ rfl _ fun d => ?_
  match d with
  | ⟨0, _⟩ => rfl
  | ⟨1, _⟩ => rfl
  | ⟨2, _⟩ => exact hc

/-- … and from the first piece's extent on: the second piece, that extent less. -/
theorem concatLast_right {A B C₁ C₂ C : Nat} (x₁ : (⟨3, ![A, B, C₁]⟩ : Shape).Idx → α) (x₂ : (⟨3, ![A, B, C₂]⟩ : Shape).Idx → α)
    (h : Shape.Concatenates [⟨3, ![A, B, C₁]⟩, ⟨3, ![A, B, C₂]⟩] ⟨3, ![A, B, C]⟩ 2) (a : Fin A) (b : Fin B) (c : Fin C) (c₂ : Fin C₂)
    (hc : c₂.val + C₁ = c.val) :
    concatenate ⟨3, ![A, B, C]⟩ 2 [⟨⟨3, ![A, B, C₁]⟩, x₁⟩, ⟨⟨3, ![A, B, C₂]⟩, x₂⟩] h (ix3 a b c) = x₂ (ix3 a b c₂) := by
  refine concatenate_pair_apply_right 2 x₁ x₂ h _ rfl rfl _ (fun d hd => ?_) hc
  match d with
  | ⟨0, _⟩ => rfl
  | ⟨1, _⟩ => rfl
  | ⟨2, _⟩ => exact absurd rfl hd

end Cert.UnitAxes
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.KLayer.lean ====
/-
  One dense layer in the kernel's layout, read at an entry; generic in the extents.

  The kernel keeps the activations transposed: features down (O or K of them), the block's rows across (N).  A layer
  multiplies the weight matrix [O, K] into the activations [K, N] from the left into a zero accumulator, adds the bias
  as a column repeated across the rows, and applies the exponential linear unit entry by entry.  Read at the entry
  (o, n) this is the dense layer of the specification applied to column n of the activations:
  elu (∑ₖ W(o,k) · h(k,n) + b(o)).  The last layer multiplies the activations, transposed back to [N, K], into the
  transposed weights [K, P] and adds the offsets as a row repeated down the rows:
  entry (n, p) is ∑ₖ h(k,n) · W(p,k) + init(p).
-/
import proofs.«132437_j48464410968236_2_alg».proof.Proof.Mlp
import proofs.«132437_j48464410968236_2_alg».proof.Proof.LibPlainDot
import proofs.«132437_j48464410968236_2_alg».proof.Proof.LibKeepdims
import proofs.«132437_j48464410968236_2_alg».proof.Proof.LibUnitAxes
import proofs.«132437_j48464410968236_2_alg».proof.Proof.LibRows

noncomputable section

namespace Cert.KernelLayout

open Idealize.ShloMosaic Idealize.ShloMosaic.ValueIdx Cert.Mlp

/-- The exponential linear unit applied to every entry of a vector, as the kernel spells it:
    select (y > 0) y (exp y − 1). -/
def eluV {s : Shape} (y : FVec Ideal s .f32) : FVec Ideal s .f32 :=
  select (cmpf .ogt y (broadcast s (Scalar.ofBits (F := Ideal) .f32 0x00000000#32))) y
    (subf (exp y) (broadcast s (Scalar.ofBits (F := Ideal) .f32 0x3F800000#32)))

/-- Entry by entry it is the specification's unit. -/
theorem eluV_apply {s : Shape} (y : FVec Ideal s .f32) (i : s.Idx) : eluV y i = elu (y i) := rfl

variable {O K N : Nat}

/-- A pre-activation [O, N] plus the bias [O] as a column repeated across, then the unit. -/
def biasElu (y : FVec Ideal ⟨2, ![O, N]⟩ .f32) (b : FVec Ideal ⟨1, ![O]⟩ .f32)
    (hc : (⟨1, ![O]⟩ : Shape).ShapeCasts ⟨2, ![O, 1]⟩) (hb : (⟨2, ![O, 1]⟩ : Shape).Broadcasts ⟨2, ![O, N]⟩) :
    FVec Ideal ⟨2, ![O, N]⟩ .f32 :=
  eluV (addf y (broadcastTo ⟨2, ![O, N]⟩ (shapeCast ⟨2, ![O, 1]⟩ b hc) hb))

/-- Entry (o, n): the unit of the pre-activation there plus b(o). -/
theorem biasElu_apply (y : FVec Ideal ⟨2, ![O, N]⟩ .f32) (b : FVec Ideal ⟨1, ![O]⟩ .f32)
    (hc : (⟨1, ![O]⟩ : Shape).ShapeCasts ⟨2, ![O, 1]⟩) (hb : (⟨2, ![O, 1]⟩ : Shape).Broadcasts ⟨2, ![O, N]⟩)
    (o : Fin O) (n : Fin N) : biasElu y b hc hb (ix2 o n) = elu (y (ix2 o n) + b (ix1 o)) := by
  unfold biasElu
  rw [eluV_apply, addf_apply, Cert.Layout.bcast_col, Cert.Layout.cast_col]

/-- One layer: the weights [O, K] times the activations [K, N] into the zero accumulator, the bias, the unit. -/
def layerT (D : DotDims ⟨2, ![O, K]⟩ ⟨2, ![K, N]⟩ ⟨2, ![O, N]⟩) (W : FVec Ideal ⟨2, ![O, K]⟩ .f32)
    (b : FVec Ideal ⟨1, ![O]⟩ .f32) (h : FVec Ideal ⟨2, ![K, N]⟩ .f32)
    (hc : (⟨1, ![O]⟩ : Shape).ShapeCasts ⟨2, ![O, 1]⟩) (hb : (⟨2, ![O, 1]⟩ : Shape).Broadcasts ⟨2, ![O, N]⟩) :
    FVec Ideal ⟨2, ![O, N]⟩ .f32 :=
  biasElu (matmul D none W h (constant (F := Ideal) ⟨2, ![O, N]⟩ .f32 0x00000000#32)) b hc hb

/-- Entry (o, n) of a layer is the specification's dense layer on column n of the activations. -/
theorem layerT_apply (D : DotDims ⟨2, ![O, K]⟩ ⟨2, ![K, N]⟩ ⟨2, ![O, N]⟩) (hD : D = DotDims.plain O K N)
    (W : FVec Ideal ⟨2, ![O, K]⟩ .f32) (b : FVec Ideal ⟨1, ![O]⟩ .f32) (h : FVec Ideal ⟨2, ![K, N]⟩ .f32)
    (hc : (⟨1, ![O]⟩ : Shape).ShapeCasts ⟨2, ![O, 1]⟩) (hb : (⟨2, ![O, 1]⟩ : Shape).Broadcasts ⟨2, ![O, N]⟩)
    (o : Fin O) (n : Fin N) :
    layerT D W b h hc hb (ix2 o n) = dense (mat W) (vec b) (fun k => h (ix2 k n)) o := by
  subst hD
  unfold layerT
  rw [biasElu_apply, Cert.Lib.PlainDot.matmul_plain_zero_apply]
  rfl

/-- Column n of a layer's result is the dense layer of column n of its operand. -/
theorem layerT_col (D : DotDims ⟨2, ![O, K]⟩ ⟨2, ![K, N]⟩ ⟨2, ![O, N]⟩) (hD : D = DotDims.plain O K N)
    (W : FVec Ideal ⟨2, ![O, K]⟩ .f32) (b : FVec Ideal ⟨1, ![O]⟩ .f32) (h : FVec Ideal ⟨2, ![K, N]⟩ .f32)
    (hc : (⟨1, ![O]⟩ : Shape).ShapeCasts ⟨2, ![O, 1]⟩) (hb : (⟨2, ![O, 1]⟩ : Shape).Broadcasts ⟨2, ![O, N]⟩)
    (n : Fin N) (a : Fin K → Ideal .f32) (ha : (fun k => h (ix2 k n)) = a) :
    (fun o => layerT D W b h hc hb (ix2 o n)) = dense (mat W) (vec b) a := by
  funext o
  rw [layerT_apply D hD, ha]

/-- The last layer: the activations transposed back to [N, K] times the transposed weights [K, P] into the zero
    accumulator, plus the offsets [P] as a row repeated down; entry (n, p) is ∑ₖ h(k,n) · W(p,k) + init(p). -/
theorem last_apply {P : Nat} (D : DotDims ⟨2, ![N, K]⟩ ⟨2, ![K, P]⟩ ⟨2, ![N, P]⟩) (hD : D = DotDims.plain N K P)
    (h : FVec Ideal ⟨2, ![K, N]⟩ .f32) (W : FVec Ideal ⟨2, ![P, K]⟩ .f32) (init : FVec Ideal ⟨1, ![P]⟩ .f32)
    (hth : (⟨2, ![K, N]⟩ : Shape).Transposes [1, 0] ⟨2, ![N, K]⟩) (htw : (⟨2, ![P, K]⟩ : Shape).Transposes [1, 0] ⟨2, ![K, P]⟩)
    (hc : (⟨1, ![P]⟩ : Shape).ShapeCasts ⟨2, ![1, P]⟩) (hb : (⟨2, ![1, P]⟩ : Shape).Broadcasts ⟨2, ![N, P]⟩)
    (n : Fin N) (p : Fin P) :
    addf (matmul D none (transpose ⟨2, ![N, K]⟩ [1, 0] h hth) (transpose ⟨2, ![K, P]⟩ [1, 0] W htw)
        (constant (F := Ideal) ⟨2, ![N, P]⟩ .f32 0x00000000#32))
      (broadcastTo ⟨2, ![N, P]⟩ (shapeCast ⟨2, ![1, P]⟩ init hc) hb) (ix2 n p)
      = (∑ k : Fin K, h (ix2 k n) * W (ix2 p k)) + init (ix1 p) := by
  subst hD
  rw [addf_apply, Cert.Lib.PlainDot.matmul_plain_zero_apply, Cert.Lib.Rows.broadcastTo_row_apply,
    Cert.Lib.Rows.shapeCast_vec_row_apply]
  congr 1
  refine Finset.sum_congr rfl fun k _ => ?_
  rw [Cert.UnitAxes.transpose2, Cert.UnitAxes.transpose2]

end Cert.KernelLayout

end
-- ==== Proof.KBody.lean ====
/-
  What the kernel's body leaves in its output block, entry by entry.

  The body loads the block's 4000 rows of x and all the weights, transposes x to a row [1, 4000], runs the eight
  layers in the transposed layout (features down, rows across), transposes the last activations back, multiplies
  them into the transposed last weight matrix and adds the offsets.  Column n of the activations after layer ℓ is the
  specification's layer-ℓ activation vector of the number x holds in row n of the block, so entry (n, p) of the
  stored block is ∑ₖ act8(x(n))(k) · W9(p,k) + init(p).
-/
import proofs.«132437_j48464410968236_2_alg».proof.Proof.Gen.KernelIdeal.Frame
import proofs.«132437_j48464410968236_2_alg».proof.Proof.KLayer
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.Mlp Cert.KernelLayout

theorem zeros2 : (![0, 0] : Fin 2 → Nat) = fun _ => 0 := funext fun a => by fin_cases a <;> rfl
theorem zeros1 : (![0] : Fin 1 → Nat) = fun _ => 0 := funext fun a => by fin_cases a <;> rfl

/-- A plain product into the zero accumulator under any record with the plain dimension numbers. -/
theorem matmul_zero_apply {O K N : Nat} (D : DotDims ⟨2, ![O, K]⟩ ⟨2, ![K, N]⟩ ⟨2, ![O, N]⟩) (hD : D = DotDims.plain O K N)
    (W : FVec Ideal ⟨2, ![O, K]⟩ .f32) (h : FVec Ideal ⟨2, ![K, N]⟩ .f32) (o : Fin O) (n : Fin N) :
    matmul D none W h (constant (F := Ideal) ⟨2, ![O, N]⟩ .f32 0x00000000#32) (ix2 o n) = ∑ k : Fin K, W (ix2 o k) * h (ix2 k n) := by
  subst hD; exact Cert.Lib.PlainDot.matmul_plain_zero_apply none W h o n

/-! ## The three pieces of the body's arithmetic as compositions of layers -/

/-- Layers 1 to 3 on the transposed block of x. -/
theorem first_eq (v0 : FVec Ideal S4000x1 .f32) (v2 : FVec Ideal S2x1 .f32) (v4 : FVec Ideal S2 .f32) (v14 : FVec Ideal S8x2 .f32)
    (v16 : FVec Ideal S8 .f32) (v26 : FVec Ideal S8x8 .f32) (v28 : FVec Ideal S8 .f32) :
    k0_pay2 (F := Ideal) v0 v2 v4 v14 v16 v26 v28
      = layerT dot_S8x8_S8x4000_S8x4000_1_0_0_1_n_n v26 v28
          (layerT dot_S8x2_S2x4000_S8x4000_1_0_0_1_n_n v14 v16
            (layerT dot_S2x1_S1x4000_S2x4000_1_0_0_1_n_n v2 v4
              (transpose S1x4000 [1, 0] v0 transposes_S4000x1_p1_0_S1x4000) shapeCasts_S2_S2x1 broadcasts_S2x1_S2x4000)
            shapeCasts_S8_S8x1 broadcasts_S8x1_S8x4000)
          shapeCasts_S8_S8x1 broadcasts_S8x1_S8x4000 := rfl

/-- Layers 4 to 6 and the product of layer 7. -/
theorem middle_eq (v37 : FVec Ideal S8x4000 .f32) (v38 : FVec Ideal S8x8 .f32) (v40 : FVec Ideal S8 .f32) (v50 : FVec Ideal S16x8 .f32)
    (v52 : FVec Ideal S16 .f32) (v62 : FVec Ideal S32x16 .f32) (v64 : FVec Ideal S32 .f32) (v74 : FVec Ideal S32x32 .f32) :
    k0_pay3 (F := Ideal) v37 v38 v40 v50 v52 v62 v64 v74
      = matmul dot_S32x32_S32x4000_S32x4000_1_0_0_1_n_n none v74
          (layerT dot_S32x16_S16x4000_S32x4000_1_0_0_1_n_n v62 v64
            (layerT dot_S16x8_S8x4000_S16x4000_1_0_0_1_n_n v50 v52
              (layerT dot_S8x8_S8x4000_S8x4000_1_0_0_1_n_n v38 v40 v37 shapeCasts_S8_S8x1 broadcasts_S8x1_S8x4000)
              shapeCasts_S16_S16x1 broadcasts_S16x1_S16x4000)
            shapeCasts_S32_S32x1 broadcasts_S32x1_S32x4000)
          (constant (F := Ideal) S32x4000 .f32 0x00000000#32) := rfl

/-- The bias and unit of layer 7, layer 8, and the last layer. -/
theorem final_eq (v75 : FVec Ideal S32x4000 .f32) (v76 : FVec Ideal S32 .f32) (v86 : FVec Ideal S32x32 .f32) (v88 : FVec Ideal S32 .f32)
    (v99 : FVec Ideal S1000x32 .f32) (v102 : FVec Ideal S1000 .f32) :
    k0_pay1 (F := Ideal) v75 v76 v86 v88 v99 v102
      = addf (matmul dot_S4000x32_S32x1000_S4000x1000_1_0_0_1_n_n none
            (transpose S4000x32 [1, 0]
              (layerT dot_S32x32_S32x4000_S32x4000_1_0_0_1_n_n v86 v88
                (biasElu v75 v76 shapeCasts_S32_S32x1 broadcasts_S32x1_S32x4000) shapeCasts_S32_S32x1 broadcasts_S32x1_S32x4000)
              transposes_S32x4000_p1_0_S4000x32)
            (transpose S32x1000 [1, 0] v99 transposes_S1000x32_p1_0_S32x1000)
            (constant (F := Ideal) S4000x1000 .f32 0x00000000#32))
          (broadcastTo S4000x1000 (shapeCast S1x1000 v102 shapeCasts_S1000_S1x1000) broadcasts_S1x1000_S4000x1000) := rfl

/-! ## Their columns are the specification's activations -/

/-- Column n after layers 1 to 3: the third activation vector of the number in row n. -/
theorem first_col (v0 : FVec Ideal S4000x1 .f32) (v2 : FVec Ideal S2x1 .f32) (v4 : FVec Ideal S2 .f32) (v14 : FVec Ideal S8x2 .f32)
    (v16 : FVec Ideal S8 .f32) (v26 : FVec Ideal S8x8 .f32) (v28 : FVec Ideal S8 .f32) (n : Fin 4000) :
    (fun o : Fin 8 => k0_pay2 (F := Ideal) v0 v2 v4 v14 v16 v26 v28 (ix2 o n))
      = dense (mat v26) (vec v28) (dense (mat v14) (vec v16) (dense (mat v2) (vec v4) (fun _ : Fin 1 => v0 (ix2 n (0 : Fin 1))))) := by
  rw [first_eq]
  refine layerT_col _ rfl _ _ _ _ _ n _ ?_
  refine layerT_col _ rfl _ _ _ _ _ n _ ?_
  refine layerT_col _ rfl _ _ _ _ _ n _ ?_
  funext k
  rw [Cert.UnitAxes.transpose2, Subsingleton.elim k (0 : Fin 1)]

/-- Entry (o, n) of the product of layer 7, from column n of the third activations. -/
theorem middle_apply (v37 : FVec Ideal S8x4000 .f32) (v38 : FVec Ideal S8x8 .f32) (v40 : FVec Ideal S8 .f32) (v50 : FVec Ideal S16x8 .f32)
    (v52 : FVec Ideal S16 .f32) (v62 : FVec Ideal S32x16 .f32) (v64 : FVec Ideal S32 .f32) (v74 : FVec Ideal S32x32 .f32)
    (o : Fin 32) (n : Fin 4000) (a : Fin 8 → Ideal .f32) (ha : (fun k : Fin 8 => v37 (ix2 k n)) = a) :
    k0_pay3 (F := Ideal) v37 v38 v40 v50 v52 v62 v64 v74 (ix2 o n)
      = ∑ k : Fin 32, v74 (ix2 o k) * dense (mat v62) (vec v64) (dense (mat v50) (vec v52) (dense (mat v38) (vec v40) a)) k := by
  rw [middle_eq, matmul_zero_apply dot_S32x32_S32x4000_S32x4000_1_0_0_1_n_n rfl]
  have hcol : (fun k : Fin 32 =>
      layerT dot_S32x16_S16x4000_S32x4000_1_0_0_1_n_n v62 v64
        (layerT dot_S16x8_S8x4000_S16x4000_1_0_0_1_n_n v50 v52
          (layerT dot_S8x8_S8x4000_S8x4000_1_0_0_1_n_n v38 v40 v37 shapeCasts_S8_S8x1 broadcasts_S8x1_S8x4000)
          shapeCasts_S16_S16x1 broadcasts_S16x1_S16x4000)
        shapeCasts_S32_S32x1 broadcasts_S32x1_S32x4000 (ix2 k n))
      = dense (mat v62) (vec v64) (dense (mat v50) (vec v52) (dense (mat v38) (vec v40) a)) := by
    refine layerT_col _ rfl _ _ _ _ _ n _ ?_
    refine layerT_col _ rfl _ _ _ _ _ n _ ?_
    exact layerT_col _ rfl _ _ _ _ _ n _ ha
  exact Finset.sum_congr rfl fun k _ => congrArg (fun z : Ideal .f32 => v74 (ix2 o k) * z) (congrFun hcol k)

/-! ## The stored block -/

/-- Entry (n, p) of the block the body stores: the decoder's value of the block's row n at point p. -/
theorem out_apply (x0 : Vec Ideal S4000x1 .f32) (x1 : Vec Ideal S1000 .f32) (x2 : Vec Ideal S2x1 .f32) (x3 : Vec Ideal S2 .f32) (x4 : Vec Ideal S8x2 .f32) (x5 : Vec Ideal S8 .f32) (x6 : Vec Ideal S8x8 .f32) (x7 : Vec Ideal S8 .f32) (x8 : Vec Ideal S8x8 .f32) (x9 : Vec Ideal S8 .f32) (x10 : Vec Ideal S16x8 .f32) (x11 : Vec Ideal S16 .f32) (x12 : Vec Ideal S32x16 .f32) (x13 : Vec Ideal S32 .f32) (x14 : Vec Ideal S32x32 .f32) (x15 : Vec Ideal S32 .f32) (x16 : Vec Ideal S32x32 .f32) (x17 : Vec Ideal S32 .f32) (x18 : Vec Ideal S1000x32 .f32)
    (n : Fin 4000) (p : Fin 1000) :
    Gen.out0_19 x0 x1 x2 x3 x4 x5 x6 x7 x8 x9 x10 x11 x12 x13 x14 x15 x16 x17 x18 (ix2 n p)
      = (∑ k : Fin 32, Cert.Mlp.act8 ⟨x2, x3, x4, x5, x6, x7, x8, x9, x10, x11, x12, x13, x14, x15, x16, x17⟩ (x0 (ix2 n (0 : Fin 1))) k * x18 (ix2 p k))
        + x1 (ix1 p) := by
  unfold out0_19
  rw [View.canon_unit_zero zeros2]
  simp only [View.ld_unit_zero (S := S4000x1) zeros2, View.ld_unit_zero (S := S2x1) zeros2, View.ld_unit_zero (S := S2) zeros1,
    View.ld_unit_zero (S := S8x2) zeros2, View.ld_unit_zero (S := S8) zeros1, View.ld_unit_zero (S := S8x8) zeros2,
    View.ld_unit_zero (S := S16x8) zeros2, View.ld_unit_zero (S := S16) zeros1, View.ld_unit_zero (S := S32x16) zeros2,
    View.ld_unit_zero (S := S32) zeros1, View.ld_unit_zero (S := S32x32) zeros2, View.ld_unit_zero (S := S1000x32) zeros2,
    View.ld_unit_zero (S := S1000) zeros1]
  rw [final_eq, last_apply dot_S4000x32_S32x1000_S4000x1000_1_0_0_1_n_n rfl]
  have hcol : (fun k : Fin 32 =>
      layerT dot_S32x32_S32x4000_S32x4000_1_0_0_1_n_n x16 x17
        (biasElu (k0_pay3 (k0_pay2 x0 x2 x3 x4 x5 x6 x7) x8 x9 x10 x11 x12 x13 x14) x15 shapeCasts_S32_S32x1
          broadcasts_S32x1_S32x4000)
        shapeCasts_S32_S32x1 broadcasts_S32x1_S32x4000 (ix2 k n))
      = act8 ⟨x2, x3, x4, x5, x6, x7, x8, x9, x10, x11, x12, x13, x14, x15, x16, x17⟩ (x0 (ix2 n (0 : Fin 1))) := by
    refine layerT_col _ rfl _ _ _ _ _ n (act7 ⟨x2, x3, x4, x5, x6, x7, x8, x9, x10, x11, x12, x13, x14, x15, x16, x17⟩ (x0 (ix2 n (0 : Fin 1)))) ?_
    funext o
    rw [biasElu_apply, middle_apply _ _ _ _ _ _ _ _ o n _ (first_col x0 x2 x3 x4 x5 x6 x7 n)]
    rfl
  exact congrArg (fun f : Fin 32 → Ideal .f32 => (∑ k : Fin 32, f k * x18 (ix2 p k)) + x1 (ix1 p)) hcol

end Cert.KernelIdeal.Body

end
-- ==== Proof.KBlocks.lean ====
/-
  From the blocks to the array.

  The kernel runs over 25 grid points.  At point t the input column's window holds rows 4000·t … 4000·t + 3999
  of x, each of the eighteen weight windows holds its whole array, and the body leaves in the output window the
  decoder's values of those 4000 rows at the 1000 depth points.  The output's block at point t is rows
  4000·t … 4000·t + 3999 of the [100000, 1000] result, so what point t writes back is block t of ONE array, the
  decoder's result of the whole input column; the 25 blocks cover the 100000 rows (row r lies in block r / 4000),
  hence the output array after the region is that result array.
-/
import proofs.«132437_j48464410968236_2_alg».proof.Proof.Gen.KernelIdeal.Frame
import proofs.«132437_j48464410968236_2_alg».proof.Proof.KBody
import proofs.«132437_j48464410968236_2_alg».proof.Proof.Mlp
import Idealize.ShloMosaic.Lib.Pipeline.Value
import Idealize.ShloMosaic.Lib.ValueIdx

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The row windows: the input column and the output -/

/-- The printed index maps of the two row windows, decided over the 25 grid points: the input rows (window 0) and the
    output (window 19) sit at block row t, column block 0. -/
theorem row_index : ∀ t : Fin cfg0.N, win0_0.index t (0 : Fin 2) = t.val ∧ win0_0.index t (1 : Fin 2) = 0
    ∧ win0_19.index t (0 : Fin 2) = t.val ∧ win0_19.index t (1 : Fin 2) = 0 :=
  (by decide +kernel : ∀ t : Fin grid0.N, _)

/-- Window 0's block at point t holds rows 4000·t … 4000·t + 3999 of the input column: entry n of the block is row
    4000·t + n of the array. -/
theorem rows_block (c : Dev nD) (t : Fin cfg0.N) (n : Fin 4000) (r : Fin 100000) (hr : r.val = 4000 * t.val + n.val) :
    (iblk m c 0 t : Vec Ideal S4000x1 .f32) (ix2 n (0 : Fin 1))
      = (m ((c : Thread nD τ).loc main_arg0) : S100000x1.Idx → Elt Ideal .f32) (ix2 r (0 : Fin 1)) := by
  obtain ⟨e0, e1, -, -⟩ := row_index t
  unfold iblk
  rw [View.read_apply]
  show V m c main_arg0 _ = m (c.tc.loc main_arg0) _
  unfold V
  congr 1
  funext a
  apply Fin.ext
  match a with
  | ⟨0, _⟩ => show win0_0.index t 0 * 4000 + 1 * n.val = r.val; rw [e0, hr]; omega
  | ⟨1, _⟩ => show win0_0.index t 1 * 1 + 1 * 0 = 0; rw [e1]

/-- Entry (n, p) of the output's block at point t sits at row 4000·t + n, column p of the output array. -/
theorem out_emb (t : Fin cfg0.N) (n : Fin 4000) (p : Fin 1000) (r : Fin 100000) (hr : r.val = 4000 * t.val + n.val) :
    ((cfg0.win 19).blk t).view.emb (ix2 n p) = (ix2 r p : S100000x1000.Idx) := by
  obtain ⟨-, -, e0, e1⟩ := row_index t
  funext a
  apply Fin.ext
  match a with
  | ⟨0, _⟩ => show win0_19.index t 0 * 4000 + 1 * n.val = r.val; rw [e0, hr]; omega
  | ⟨1, _⟩ => show win0_19.index t 1 * 1000 + 1 * p.val = p.val; rw [e1]; omega

/-! ## The weight windows: each is one block, its whole array

  For each of windows 1 … 18 the index map is constantly block 0 on every axis (decided over the grid), so an entry
  of the block has the same coordinates in the array and the block, read through the window, is the array itself. -/

/-- Reading an array at an index with the same coordinates gives the array back. -/
theorem read_same {S : Shape} (A : S.Idx → Elt Ideal .f32) (e : S.Idx → S.Idx) (h : ∀ y a, ((e y) a).val = (y a).val) :
    (fun y => A (e y)) = A :=
  funext fun y => congrArg A (funext fun a => Fin.ext (h y a))

/-- Window 1, the initial depth row [1000]. -/
theorem index1 : ∀ (t : Fin cfg0.N) (a : Fin 1), win0_1.index t a = 0 :=
  (by decide +kernel : ∀ (t : Fin grid0.N) (a : Fin 1), win0_1.index t a = 0)
theorem whole1 (c : Dev nD) (t : Fin cfg0.N) :
    (iblk m c 1 t : Vec Ideal S1000 .f32) = (m ((c : Thread nD τ).loc main_arg1) : S1000.Idx → Elt Ideal .f32) :=
  read_same (S := S1000) (m ((c : Thread nD τ).loc main_arg1)) (fun y => ((cfg0.win 1).blk t).view.emb y)
    (fun y a => win0_1.rect_emb_val_of_index_zero t a (index1 t a) y)

/-- Window 2, W1 [2, 1]. -/
theorem index2 : ∀ (t : Fin cfg0.N) (a : Fin 2), win0_2.index t a = 0 :=
  (by decide +kernel : ∀ (t : Fin grid0.N) (a : Fin 2), win0_2.index t a = 0)
theorem whole2 (c : Dev nD) (t : Fin cfg0.N) :
    (iblk m c 2 t : Vec Ideal S2x1 .f32) = (m ((c : Thread nD τ).loc main_arg2) : S2x1.Idx → Elt Ideal .f32) :=
  read_same (S := S2x1) (m ((c : Thread nD τ).loc main_arg2)) (fun y => ((cfg0.win 2).blk t).view.emb y)
    (fun y a => win0_2.rect_emb_val_of_index_zero t a (index2 t a) y)

/-- Window 3, b1 [2]. -/
theorem index3 : ∀ (t : Fin cfg0.N) (a : Fin 1), win0_3.index t a = 0 :=
  (by decide +kernel : ∀ (t : Fin grid0.N) (a : Fin 1), win0_3.index t a = 0)
theorem whole3 (c : Dev nD) (t : Fin cfg0.N) :
    (iblk m c 3 t : Vec Ideal S2 .f32) = (m ((c : Thread nD τ).loc main_arg3) : S2.Idx → Elt Ideal .f32) :=
  read_same (S := S2) (m ((c : Thread nD τ).loc main_arg3)) (fun y => ((cfg0.win 3).blk t).view.emb y)
    (fun y a => win0_3.rect_emb_val_of_index_zero t a (index3 t a) y)

/-- Window 4, W2 [8, 2]. -/
theorem index4 : ∀ (t : Fin cfg0.N) (a : Fin 2), win0_4.index t a = 0 :=
  (by decide +kernel : ∀ (t : Fin grid0.N) (a : Fin 2), win0_4.index t a = 0)
theorem whole4 (c : Dev nD) (t : Fin cfg0.N) :
    (iblk m c 4 t : Vec Ideal S8x2 .f32) = (m ((c : Thread nD τ).loc main_arg4) : S8x2.Idx → Elt Ideal .f32) :=
  read_same (S := S8x2) (m ((c : Thread nD τ).loc main_arg4)) (fun y => ((cfg0.win 4).blk t).view.emb y)
    (fun y a => win0_4.rect_emb_val_of_index_zero t a (index4 t a) y)

/-- Window 5, b2 [8]. -/
theorem index5 : ∀ (t : Fin cfg0.N) (a : Fin 1), win0_5.index t a = 0 :=
  (by decide +kernel : ∀ (t : Fin grid0.N) (a : Fin 1), win0_5.index t a = 0)
theorem whole5 (c : Dev nD) (t : Fin cfg0.N) :
    (iblk m c 5 t : Vec Ideal S8 .f32) = (m ((c : Thread nD τ).loc main_arg5) : S8.Idx → Elt Ideal .f32) :=
  read_same (S := S8) (m ((c : Thread nD τ).loc main_arg5)) (fun y => ((cfg0.win 5).blk t).view.emb y)
    (fun y a => win0_5.rect_emb_val_of_index_zero t a (index5 t a) y)

/-- Window 6, W3 [8, 8]. -/
theorem index6 : ∀ (t : Fin cfg0.N) (a : Fin 2), win0_6.index t a = 0 :=
  (by decide +kernel : ∀ (t : Fin grid0.N) (a : Fin 2), win0_6.index t a = 0)
theorem whole6 (c : Dev nD) (t : Fin cfg0.N) :
    (iblk m c 6 t : Vec Ideal S8x8 .f32) = (m ((c : Thread nD τ).loc main_arg6) : S8x8.Idx → Elt Ideal .f32) :=
  read_same (S := S8x8) (m ((c : Thread nD τ).loc main_arg6)) (fun y => ((cfg0.win 6).blk t).view.emb y)
    (fun y a => win0_6.rect_emb_val_of_index_zero t a (index6 t a) y)

/-- Window 7, b3 [8]. -/
theorem index7 : ∀ (t : Fin cfg0.N) (a : Fin 1), win0_7.index t a = 0 :=
  (by decide +kernel : ∀ (t : Fin grid0.N) (a : Fin 1), win0_7.index t a = 0)
theorem whole7 (c : Dev nD) (t : Fin cfg0.N) :
    (iblk m c 7 t : Vec Ideal S8 .f32) = (m ((c : Thread nD τ).loc main_arg7) : S8.Idx → Elt Ideal .f32) :=
  read_same (S := S8) (m ((c : Thread nD τ).loc main_arg7)) (fun y => ((cfg0.win 7).blk t).view.emb y)
    (fun y a => win0_7.rect_emb_val_of_index_zero t a (index7 t a) y)

/-- Window 8, W4 [8, 8]. -/
theorem index8 : ∀ (t : Fin cfg0.N) (a : Fin 2), win0_8.index t a = 0 :=
  (by decide +kernel : ∀ (t : Fin grid0.N) (a : Fin 2), win0_8.index t a = 0)
theorem whole8 (c : Dev nD) (t : Fin cfg0.N) :
    (iblk m c 8 t : Vec Ideal S8x8 .f32) = (m ((c : Thread nD τ).loc main_arg8) : S8x8.Idx → Elt Ideal .f32) :=
  read_same (S := S8x8) (m ((c : Thread nD τ).loc main_arg8)) (fun y => ((cfg0.win 8).blk t).view.emb y)
    (fun y a => win0_8.rect_emb_val_of_index_zero t a (index8 t a) y)

/-- Window 9, b4 [8]. -/
theorem index9 : ∀ (t : Fin cfg0.N) (a : Fin 1), win0_9.index t a = 0 :=
  (by decide +kernel : ∀ (t : Fin grid0.N) (a : Fin 1), win0_9.index t a = 0)
theorem whole9 (c : Dev nD) (t : Fin cfg0.N) :
    (iblk m c 9 t : Vec Ideal S8 .f32) = (m ((c : Thread nD τ).loc main_arg9) : S8.Idx → Elt Ideal .f32) :=
  read_same (S := S8) (m ((c : Thread nD τ).loc main_arg9)) (fun y => ((cfg0.win 9).blk t).view.emb y)
    (fun y a => win0_9.rect_emb_val_of_index_zero t a (index9 t a) y)

/-- Window 10, W5 [16, 8]. -/
theorem index10 : ∀ (t : Fin cfg0.N) (a : Fin 2), win0_10.index t a = 0 :=
  (by decide +kernel : ∀ (t : Fin grid0.N) (a : Fin 2), win0_10.index t a = 0)
theorem whole10 (c : Dev nD) (t : Fin cfg0.N) :
    (iblk m c 10 t : Vec Ideal S16x8 .f32) = (m ((c : Thread nD τ).loc main_arg10) : S16x8.Idx → Elt Ideal .f32) :=
  read_same (S := S16x8) (m ((c : Thread nD τ).loc main_arg10)) (fun y => ((cfg0.win 10).blk t).view.emb y)
    (fun y a => win0_10.rect_emb_val_of_index_zero t a (index10 t a) y)

/-- Window 11, b5 [16]. -/
theorem index11 : ∀ (t : Fin cfg0.N) (a : Fin 1), win0_11.index t a = 0 :=
  (by decide +kernel : ∀ (t : Fin grid0.N) (a : Fin 1), win0_11.index t a = 0)
theorem whole11 (c : Dev nD) (t : Fin cfg0.N) :
    (iblk m c 11 t : Vec Ideal S16 .f32) = (m ((c : Thread nD τ).loc main_arg11) : S16.Idx → Elt Ideal .f32) :=
  read_same (S := S16) (m ((c : Thread nD τ).loc main_arg11)) (fun y => ((cfg0.win 11).blk t).view.emb y)
    (fun y a => win0_11.rect_emb_val_of_index_zero t a (index11 t a) y)

/-- Window 12, W6 [32, 16]. -/
theorem index12 : ∀ (t : Fin cfg0.N) (a : Fin 2), win0_12.index t a = 0 :=
  (by decide +kernel : ∀ (t : Fin grid0.N) (a : Fin 2), win0_12.index t a = 0)
theorem whole12 (c : Dev nD) (t : Fin cfg0.N) :
    (iblk m c 12 t : Vec Ideal S32x16 .f32) = (m ((c : Thread nD τ).loc main_arg12) : S32x16.Idx → Elt Ideal .f32) :=
  read_same (S := S32x16) (m ((c : Thread nD τ).loc main_arg12)) (fun y => ((cfg0.win 12).blk t).view.emb y)
    (fun y a => win0_12.rect_emb_val_of_index_zero t a (index12 t a) y)

/-- Window 13, b6 [32]. -/
theorem index13 : ∀ (t : Fin cfg0.N) (a : Fin 1), win0_13.index t a = 0 :=
  (by decide +kernel : ∀ (t : Fin grid0.N) (a : Fin 1), win0_13.index t a = 0)
theorem whole13 (c : Dev nD) (t : Fin cfg0.N) :
    (iblk m c 13 t : Vec Ideal S32 .f32) = (m ((c : Thread nD τ).loc main_arg13) : S32.Idx → Elt Ideal .f32) :=
  read_same (S := S32) (m ((c : Thread nD τ).loc main_arg13)) (fun y => ((cfg0.win 13).blk t).view.emb y)
    (fun y a => win0_13.rect_emb_val_of_index_zero t a (index13 t a) y)

/-- Window 14, W7 [32, 32]. -/
theorem index14 : ∀ (t : Fin cfg0.N) (a : Fin 2), win0_14.index t a = 0 :=
  (by decide +kernel : ∀ (t : Fin grid0.N) (a : Fin 2), win0_14.index t a = 0)
theorem whole14 (c : Dev nD) (t : Fin cfg0.N) :
    (iblk m c 14 t : Vec Ideal S32x32 .f32) = (m ((c : Thread nD τ).loc main_arg14) : S32x32.Idx → Elt Ideal .f32) :=
  read_same (S := S32x32) (m ((c : Thread nD τ).loc main_arg14)) (fun y => ((cfg0.win 14).blk t).view.emb y)
    (fun y a => win0_14.rect_emb_val_of_index_zero t a (index14 t a) y)

/-- Window 15, b7 [32]. -/
theorem index15 : ∀ (t : Fin cfg0.N) (a : Fin 1), win0_15.index t a = 0 :=
  (by decide +kernel : ∀ (t : Fin grid0.N) (a : Fin 1), win0_15.index t a = 0)
theorem whole15 (c : Dev nD) (t : Fin cfg0.N) :
    (iblk m c 15 t : Vec Ideal S32 .f32) = (m ((c : Thread nD τ).loc main_arg15) : S32.Idx → Elt Ideal .f32) :=
  read_same (S := S32) (m ((c : Thread nD τ).loc main_arg15)) (fun y => ((cfg0.win 15).blk t).view.emb y)
    (fun y a => win0_15.rect_emb_val_of_index_zero t a (index15 t a) y)

/-- Window 16, W8 [32, 32]. -/
theorem index16 : ∀ (t : Fin cfg0.N) (a : Fin 2), win0_16.index t a = 0 :=
  (by decide +kernel : ∀ (t : Fin grid0.N) (a : Fin 2), win0_16.index t a = 0)
theorem whole16 (c : Dev nD) (t : Fin cfg0.N) :
    (iblk m c 16 t : Vec Ideal S32x32 .f32) = (m ((c : Thread nD τ).loc main_arg16) : S32x32.Idx → Elt Ideal .f32) :=
  read_same (S := S32x32) (m ((c : Thread nD τ).loc main_arg16)) (fun y => ((cfg0.win 16).blk t).view.emb y)
    (fun y a => win0_16.rect_emb_val_of_index_zero t a (index16 t a) y)

/-- Window 17, b8 [32]. -/
theorem index17 : ∀ (t : Fin cfg0.N) (a : Fin 1), win0_17.index t a = 0 :=
  (by decide +kernel : ∀ (t : Fin grid0.N) (a : Fin 1), win0_17.index t a = 0)
theorem whole17 (c : Dev nD) (t : Fin cfg0.N) :
    (iblk m c 17 t : Vec Ideal S32 .f32) = (m ((c : Thread nD τ).loc main_arg17) : S32.Idx → Elt Ideal .f32) :=
  read_same (S := S32) (m ((c : Thread nD τ).loc main_arg17)) (fun y => ((cfg0.win 17).blk t).view.emb y)
    (fun y a => win0_17.rect_emb_val_of_index_zero t a (index17 t a) y)

/-- Window 18, W9 [1000, 32]. -/
theorem index18 : ∀ (t : Fin cfg0.N) (a : Fin 2), win0_18.index t a = 0 :=
  (by decide +kernel : ∀ (t : Fin grid0.N) (a : Fin 2), win0_18.index t a = 0)
theorem whole18 (c : Dev nD) (t : Fin cfg0.N) :
    (iblk m c 18 t : Vec Ideal S1000x32 .f32) = (m ((c : Thread nD τ).loc main_arg18) : S1000x32.Idx → Elt Ideal .f32) :=
  read_same (S := S1000x32) (m ((c : Thread nD τ).loc main_arg18)) (fun y => ((cfg0.win 18).blk t).view.emb y)
    (fun y a => win0_18.rect_emb_val_of_index_zero t a (index18 t a) y)

/-! ## What a point writes back -/

/-- One entry of one point's output block, over variables: if the block's row n is row r of the input column and the
    other blocks are the weight arrays themselves, entry (n, p) of what the body stores is the decoder's value of row r
    at point p. -/
theorem point_entry (X : FVec Ideal ⟨2, ![100000, 1]⟩ .f32) (init : FVec Ideal ⟨1, ![1000]⟩ .f32) (w : Cert.Mlp.Weights)
    (W9 : FVec Ideal ⟨2, ![1000, 32]⟩ .f32)
    (x0 : Vec Ideal S4000x1 .f32) (x1 : Vec Ideal S1000 .f32) (x2 : Vec Ideal S2x1 .f32) (x3 : Vec Ideal S2 .f32)
    (x4 : Vec Ideal S8x2 .f32) (x5 : Vec Ideal S8 .f32) (x6 : Vec Ideal S8x8 .f32) (x7 : Vec Ideal S8 .f32)
    (x8 : Vec Ideal S8x8 .f32) (x9 : Vec Ideal S8 .f32) (x10 : Vec Ideal S16x8 .f32) (x11 : Vec Ideal S16 .f32)
    (x12 : Vec Ideal S32x16 .f32) (x13 : Vec Ideal S32 .f32) (x14 : Vec Ideal S32x32 .f32) (x15 : Vec Ideal S32 .f32)
    (x16 : Vec Ideal S32x32 .f32) (x17 : Vec Ideal S32 .f32) (x18 : Vec Ideal S1000x32 .f32)
    (r : Fin 100000) (n : Fin 4000) (p : Fin 1000)
    (h0 : x0 (ix2 n (0 : Fin 1)) = X (ix2 r (0 : Fin 1)))
    (h1 : x1 = init) (h2 : x2 = w.W1) (h3 : x3 = w.b1) (h4 : x4 = w.W2) (h5 : x5 = w.b2) (h6 : x6 = w.W3)
    (h7 : x7 = w.b3) (h8 : x8 = w.W4) (h9 : x9 = w.b4) (h10 : x10 = w.W5) (h11 : x11 = w.b5) (h12 : x12 = w.W6)
    (h13 : x13 = w.b6) (h14 : x14 = w.W7) (h15 : x15 = w.b7) (h16 : x16 = w.W8) (h17 : x17 = w.b8) (h18 : x18 = W9) :
    out0_19 x0 x1 x2 x3 x4 x5 x6 x7 x8 x9 x10 x11 x12 x13 x14 x15 x16 x17 x18 (ix2 n p)
      = Cert.Mlp.depth X init w W9 (ix2 r p) := by
  subst h1 h2 h3 h4 h5 h6 h7 h8 h9 h10 h11 h12 h13 h14 h15 h16 h17 h18
  rw [Cert.KernelIdeal.Body.out_apply, h0, Cert.Mlp.depth_apply]
  rfl

/-- The decoder's result array [100000, 1000] of the argument arrays as launched on core c. -/
abbrev depthOf (c : Dev nD) : FVec Ideal ⟨2, ![100000, 1000]⟩ .f32 :=
  Cert.Mlp.depth (m ((c : Thread nD τ).loc main_arg0)) (m ((c : Thread nD τ).loc main_arg1))
    ⟨(m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14)), (m ((c : Thread nD τ).loc main_arg15)), (m ((c : Thread nD τ).loc main_arg16)), (m ((c : Thread nD τ).loc main_arg17))⟩
    (m ((c : Thread nD τ).loc main_arg18))

/-- What point t writes back is block t of the decoder's result array. -/
theorem flushed_eq (c : Dev nD) (t : Fin cfg0.N) :
    (dats m 0 c).flushed 19 t = ((cfg0.win 19).blk t).view.read (Elt Ideal) (depthOf m c) := by
  show (cfg0.win 19).cut (grid0.coords t) ((dats m 0 c).after 19 t) = _
  rw [after0_19]
  funext j
  obtain ⟨n, p, rfl⟩ : ∃ (n : Fin 4000) (p : Fin 1000), j = ix2 n p := ⟨j 0, j 1, eq_ix2 j⟩
  have hN : cfg0.N = 25 := N_0
  have ht : t.val < 25 := hN ▸ t.isLt
  have hr : 4000 * t.val + n.val < 100000 := by have := n.isLt; omega
  rw [View.read_apply, out_emb t n p ⟨4000 * t.val + n.val, hr⟩ rfl]
  exact point_entry _ _ _ _ _ _ _ _ _ _ _ _ _ _ _ _ _ _ _ _ _ _ _ ⟨4000 * t.val + n.val, hr⟩ n p
    (rows_block m c t n _ rfl) (whole1 m c t) (whole2 m c t) (whole3 m c t) (whole4 m c t) (whole5 m c t)
    (whole6 m c t) (whole7 m c t) (whole8 m c t) (whole9 m c t) (whole10 m c t) (whole11 m c t) (whole12 m c t)
    (whole13 m c t) (whole14 m c t) (whole15 m c t) (whole16 m c t) (whole17 m c t) (whole18 m c t)

/-! ## The cover, and the array after the region -/

/-- An index of the output array is in point t's block iff each coordinate is in the block's range on its axis. -/
theorem mem_block (t : Fin cfg0.N) (i : S100000x1000.Idx) :
    i ∈ ((cfg0.win 19).blk t).view.set ↔ ∀ a : Fin 2, win0_19.index t a * S4000x1000.size a ≤ (i a).val
      ∧ (i a).val < win0_19.index t a * S4000x1000.size a + S4000x1000.size a := by
  show i ∈ ((View.whole main_v0).slice (win0_19.rect t)).set ↔ _
  rw [View.set_slice_whole, Rect.mem_set_unit]
  exact Iff.rfl

/-- The 25 blocks of 4000 rows cover the 100000 rows: row r lies in the block of point r / 4000. -/
theorem covered (i : S100000x1000.Idx) :
    ∃ t : Fin cfg0.N, (cfg0.win 19).flush t = true ∧ i ∈ ((cfg0.win 19).blk t).view.set := by
  have hN : cfg0.N = 25 := N_0
  have hi0 : (i 0).val < 100000 := (i 0).isLt
  have hi1 : (i 1).val < 1000 := (i 1).isLt
  obtain ⟨t, ht⟩ : ∃ t : Fin cfg0.N, t.val = (i 0).val / 4000 := ⟨⟨(i 0).val / 4000, by rw [hN]; omega⟩, rfl⟩
  obtain ⟨-, -, e0, e1⟩ := row_index t
  refine ⟨t, flush0_19 t, ?_⟩
  rw [mem_block]
  intro a
  match a with
  | ⟨0, _⟩ =>
    show win0_19.index t (0 : Fin 2) * 4000 ≤ (i 0).val ∧ (i 0).val < win0_19.index t (0 : Fin 2) * 4000 + 4000
    rw [e0, ht]; omega
  | ⟨1, _⟩ =>
    show win0_19.index t (1 : Fin 2) * 1000 ≤ (i 1).val ∧ (i 1).val < win0_19.index t (1 : Fin 2) * 1000 + 1000
    rw [e1]; omega

/-- The output array after the region is the decoder's result array of the argument arrays. -/
theorem final (c : Dev nD) : (dats m 0 c).arrAt 19 cfg0.N = depthOf m c :=
  (dats m 0 c).arrAt_eq_of_cover 19 (depthOf m c) (fun t _ => flushed_eq m c t) covered

end Cert.KernelIdeal.Value

end
-- ==== Proof.KRun.lean ====
/-
  The line after the region, and the run.

  After the region the program has one more line: the [100000, 1000] output array is read as [100000, 1, 1000], the
  same entries in the same row-major order with a unit axis inserted.  The region leaves the result's buffer alone
  (it is none of the region's arrays), the line then fills it from the output array, and the output array is the
  decoder's result of the argument arrays; every argument array is an input of the region, which stages it and never
  writes it back, so it ends as it was launched.
-/
import proofs.«132437_j48464410968236_2_alg».proof.Proof.KBlocks
import Idealize.ShloMosaic.Lib.Pipeline.FrameSuffix
import Idealize.ShloMosaic.Lib.StableHlo.Run

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)

section
variable (m : (ℓ : Loc nD τ sig) → Buf (Elt Ideal) ℓ)

/-! ## The reshape after the region -/

/-- The reshaped result's buffer is none of the region's arrays: the region leaves it alone. -/
theorem v1_rest : main_v1 ∈ Pipeline.restRefs sig spec0 :=
  Pipeline.mem_restRefs_of main_v1 rfl (by decide)

/-- After the one line that follows the region, the result buffer holds the region's output array with a unit axis
    inserted: [100000, 1000] read as [100000, 1, 1000], same row-major order. -/
theorem tail_eq (c : Dev nD) :
    Pipeline.afterTail₀ cfgs (dats m) 0 (V0 m) [hostOps1] c main_v1
      = shapeCast S100000x1x1000 ((dats m 0 c).arrAt 19 cfg0.N) shapeCasts_S100000x1000_S100000x1x1000 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (dats m 0 c).arrAt 19 cfg0.N := Pipeline.withArrays_arr spec0 launch0.win.arr_inj c _ _ 19
  rw [e]
  generalize (dats m 0 c).arrAt 19 cfg0.N = A
  rfl

/-- After the run the result buffer holds the decoder's result array with the unit axis inserted. -/
theorem post_v1 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v1)
      = shapeCast S100000x1x1000 (depthOf m c) shapeCasts_S100000x1000_S100000x1x1000 :=
  ((h c).2 main_v1 v1_rest).trans ((tail_eq m c).trans
    (congrArg (fun A => shapeCast S100000x1x1000 A shapeCasts_S100000x1000_S100000x1x1000) (final m c)))

/-! ## The arguments end as launched

  Each argument array is an input window's array: the region stages it and never writes it back, so after the run
  it holds what the region found, which is what was launched (no line precedes the region). -/

variable (V' : (c : Dev nD) → (b : Ref sig .tc) → Buf (Elt Ideal) ((c.tc : Thread nD τ).loc b))

theorem kept_main_arg0 (r : PUnit × MemSt nD τ sig (Elt Ideal)) (h : Pipeline.FramePost cfgs (dats m) 0 V' r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 V' r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt Ideal)) (h : Pipeline.FramePost cfgs (dats m) 0 V' r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Pipeline.FramePost cfgs (dats m) 0 V' r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept_main_arg4 (r : PUnit × MemSt nD τ sig (Elt Ideal)) (h : Pipeline.FramePost cfgs (dats m) 0 V' r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept_main_arg5 (r : PUnit × MemSt nD τ sig (Elt Ideal)) (h : Pipeline.FramePost cfgs (dats m) 0 V' r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept_main_arg6 (r : PUnit × MemSt nD τ sig (Elt Ideal)) (h : Pipeline.FramePost cfgs (dats m) 0 V' r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept_main_arg7 (r : PUnit × MemSt nD τ sig (Elt Ideal)) (h : Pipeline.FramePost cfgs (dats m) 0 V' r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept_main_arg8 (r : PUnit × MemSt nD τ sig (Elt Ideal)) (h : Pipeline.FramePost cfgs (dats m) 0 V' r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept_main_arg9 (r : PUnit × MemSt nD τ sig (Elt Ideal)) (h : Pipeline.FramePost cfgs (dats m) 0 V' r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
theorem kept_main_arg10 (r : PUnit × MemSt nD τ sig (Elt Ideal)) (h : Pipeline.FramePost cfgs (dats m) 0 V' r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept_main_arg11 (r : PUnit × MemSt nD τ sig (Elt Ideal)) (h : Pipeline.FramePost cfgs (dats m) 0 V' r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
theorem kept_main_arg12 (r : PUnit × MemSt nD τ sig (Elt Ideal)) (h : Pipeline.FramePost cfgs (dats m) 0 V' r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))
theorem kept_main_arg13 (r : PUnit × MemSt nD τ sig (Elt Ideal)) (h : Pipeline.FramePost cfgs (dats m) 0 V' r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))
theorem kept_main_arg14 (r : PUnit × MemSt nD τ sig (Elt Ideal)) (h : Pipeline.FramePost cfgs (dats m) 0 V' r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))
theorem kept_main_arg15 (r : PUnit × MemSt nD τ sig (Elt Ideal)) (h : Pipeline.FramePost cfgs (dats m) 0 V' r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))
theorem kept_main_arg16 (r : PUnit × MemSt nD τ sig (Elt Ideal)) (h : Pipeline.FramePost cfgs (dats m) 0 V' r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))
theorem kept_main_arg17 (r : PUnit × MemSt nD τ sig (Elt Ideal)) (h : Pipeline.FramePost cfgs (dats m) 0 V' r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))
theorem kept_main_arg18 (r : PUnit × MemSt nD τ sig (Elt Ideal)) (h : Pipeline.FramePost cfgs (dats m) 0 V' r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

end

/-! ## The run -/

/-- From any launch memory every weakly fair execution of the program terminates; the result buffer then holds the
    decoder's result of the argument arrays, read as [100000, 1, 1000], and every argument array is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
        = shapeCast S100000x1x1000 (Cert.Mlp.depth (m ((c.tc : Thread nD τ).loc main_arg0)) (m ((c.tc : Thread nD τ).loc main_arg1))
            ⟨(m ((c.tc : Thread nD τ).loc main_arg2)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17))⟩
            (m ((c.tc : Thread nD τ).loc main_arg18))) shapeCasts_S100000x1000_S100000x1x1000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨post_v1 m r h c,
      kept_main_arg0 m _ r h c, kept_main_arg1 m _ r h c, kept_main_arg2 m _ r h c, kept_main_arg3 m _ r h c,
      kept_main_arg4 m _ r h c, kept_main_arg5 m _ r h c, kept_main_arg6 m _ r h c, kept_main_arg7 m _ r h c,
      kept_main_arg8 m _ r h c, kept_main_arg9 m _ r h c, kept_main_arg10 m _ r h c, kept_main_arg11 m _ r h c,
      kept_main_arg12 m _ r h c, kept_main_arg13 m _ r h c, kept_main_arg14 m _ r h c, kept_main_arg15 m _ r h c,
      kept_main_arg16 m _ r h c, kept_main_arg17 m _ r h c, kept_main_arg18 m _ r h c⟩)
    (run_main m ρ)

end Cert.KernelIdeal.Value

end
-- ==== Proof.RefOps.lean ====
/-
  The reference program as a straight line of host operations.

  The reference is eight dense layers followed by a last affine layer and a change of shape.  Each of the
  first eight layers is twenty operations: the weight matrix transposed, the product of the activations
  with it, the bias laid out as a row and repeated down the rows, the sum, and then the fifteen operations
  of the exponential linear unit (two comparisons of the sum with zero, the selection of zero or the sum,
  exp − 1 of that, the product with one, and the final selection).  The ninth segment is the last layer's
  five operations and the change of shape.  The functions the program calls are written out at their call
  sites, each over the buffers its call names, so the whole program is one list, cut into nine segments.
  Running the list from any memory ends with every buffer at the fold of the operations' results over the
  contents the run started from.
-/
import proofs.«132437_j48464410968236_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Layer 1: the affine map and the exponential linear unit, twenty operations. -/
abbrev seg1 : List (HloOp τ sig (Elt F)) :=
  [ StableHlo.unary main_arg2 main_v0 ((transpose S1x2 [1, 0] · transposes_S2x1_S1x2_1_0) : (⟨S2x1, .f32⟩ : BufTy).Contents (Elt F) → (⟨S1x2, .f32⟩ : BufTy).Contents (Elt F)),
    StableHlo.binary main_arg0 main_v0 main_v1 ((fun l r => Host.dotGeneral dot_S100000x1_S1x2_S100000x2_1_0_0_1_n_n none l r) : (⟨S100000x1, .f32⟩ : BufTy).Contents (Elt F) → (⟨S1x2, .f32⟩ : BufTy).Contents (Elt F) → (⟨S100000x2, .f32⟩ : BufTy).Contents (Elt F)),
    StableHlo.unary main_arg3 main_v2 (broadcastInDim S1x2 ![1] bcast_S2_S1x2_1 : (⟨S2, .f32⟩ : BufTy).Contents (Elt F) → (⟨S1x2, .f32⟩ : BufTy).Contents (Elt F)),
    StableHlo.unary main_v2 main_v3 (broadcastInDim S100000x2 ![0, 1] bcast_S1x2_S100000x2_0_1 : (⟨S1x2, .f32⟩ : BufTy).Contents (Elt F) → (⟨S100000x2, .f32⟩ : BufTy).Contents (Elt F)),
    StableHlo.binary main_v1 main_v3 main_v4 (addf : (⟨S100000x2, .f32⟩ : BufTy).Contents (Elt F) → (⟨S100000x2, .f32⟩ : BufTy).Contents (Elt F) → (⟨S100000x2, .f32⟩ : BufTy).Contents (Elt F)),
    StableHlo.TRef.nullary main_call0.cst (constant S_ .f32 0x00000000#32),
    StableHlo.TRef.unary main_call0.cst main_call0.v0 (broadcastInDim S100000x2 ![] bcast_S_S100000x2),
    StableHlo.TRef.binary (.of main_v4) main_call0.v0 main_call0.v1 (cmpf .ogt),
    StableHlo.TRef.nullary main_call0.cst_0 (constant S_ .f32 0x00000000#32),
    StableHlo.TRef.unary main_call0.cst_0 main_call0.v2 (broadcastInDim S100000x2 ![] bcast_S_S100000x2),
    StableHlo.TRef.binary (.of main_v4) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x2 ![] bcast_S_S100000x2),
    StableHlo.TRef.ternary main_call0.v3 main_call0.call0.v1 (.of main_v4) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x2 ![] bcast_S_S100000x2),
    StableHlo.TRef.binary main_call0.v6 main_call0.v5 main_call0.v7 mulf,
    StableHlo.TRef.ternary main_call0.v1 (.of main_v4) main_call0.v7 main_call0.call1.v0 select ]

/-- Layer 2: the affine map and the exponential linear unit, twenty operations. -/
abbrev seg2 : List (HloOp τ sig (Elt F)) :=
  [ StableHlo.unary main_arg4 main_v6 ((transpose S2x8 [1, 0] · transposes_S8x2_S2x8_1_0) : (⟨S8x2, .f32⟩ : BufTy).Contents (Elt F) → (⟨S2x8, .f32⟩ : BufTy).Contents (Elt F)),
    StableHlo.binary main_v5 main_v6 main_v7 ((fun l r => Host.dotGeneral dot_S100000x2_S2x8_S100000x8_1_0_0_1_n_n none l r) : (⟨S100000x2, .f32⟩ : BufTy).Contents (Elt F) → (⟨S2x8, .f32⟩ : BufTy).Contents (Elt F) → (⟨S100000x8, .f32⟩ : BufTy).Contents (Elt F)),
    StableHlo.unary main_arg5 main_v8 (broadcastInDim S1x8 ![1] bcast_S8_S1x8_1 : (⟨S8, .f32⟩ : BufTy).Contents (Elt F) → (⟨S1x8, .f32⟩ : BufTy).Contents (Elt F)),
    StableHlo.unary main_v8 main_v9 (broadcastInDim S100000x8 ![0, 1] bcast_S1x8_S100000x8_0_1 : (⟨S1x8, .f32⟩ : BufTy).Contents (Elt F) → (⟨S100000x8, .f32⟩ : BufTy).Contents (Elt F)),
    StableHlo.binary main_v7 main_v9 main_v10 (addf : (⟨S100000x8, .f32⟩ : BufTy).Contents (Elt F) → (⟨S100000x8, .f32⟩ : BufTy).Contents (Elt F) → (⟨S100000x8, .f32⟩ : BufTy).Contents (Elt F)),
    StableHlo.TRef.nullary main_call1.cst (constant S_ .f32 0x00000000#32),
    StableHlo.TRef.unary main_call1.cst main_call1.v0 (broadcastInDim S100000x8 ![] bcast_S_S100000x8),
    StableHlo.TRef.binary (.of main_v10) main_call1.v0 main_call1.v1 (cmpf .ogt),
    StableHlo.TRef.nullary main_call1.cst_0 (constant S_ .f32 0x00000000#32),
    StableHlo.TRef.unary main_call1.cst_0 main_call1.v2 (broadcastInDim S100000x8 ![] bcast_S_S100000x8),
    StableHlo.TRef.binary (.of main_v10) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x8 ![] bcast_S_S100000x8),
    StableHlo.TRef.ternary main_call1.v3 main_call1.call0.v1 (.of main_v10) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x8 ![] bcast_S_S100000x8),
    StableHlo.TRef.binary main_call1.v6 main_call1.v5 main_call1.v7 mulf,
    StableHlo.TRef.ternary main_call1.v1 (.of main_v10) main_call1.v7 main_call1.call1.v0 select ]

/-- Layer 3: the affine map and the exponential linear unit, twenty operations. -/
abbrev seg3 : List (HloOp τ sig (Elt F)) :=
  [ StableHlo.unary main_arg6 main_v12 ((transpose S8x8 [1, 0] · transposes_S8x8_S8x8_1_0) : (⟨S8x8, .f32⟩ : BufTy).Contents (Elt F) → (⟨S8x8, .f32⟩ : BufTy).Contents (Elt F)),
    StableHlo.binary main_v11 main_v12 main_v13 ((fun l r => Host.dotGeneral dot_S100000x8_S8x8_S100000x8_1_0_0_1_n_n none l r) : (⟨S100000x8, .f32⟩ : BufTy).Contents (Elt F) → (⟨S8x8, .f32⟩ : BufTy).Contents (Elt F) → (⟨S100000x8, .f32⟩ : BufTy).Contents (Elt F)),
    StableHlo.unary main_arg7 main_v14 (broadcastInDim S1x8 ![1] bcast_S8_S1x8_1 : (⟨S8, .f32⟩ : BufTy).Contents (Elt F) → (⟨S1x8, .f32⟩ : BufTy).Contents (Elt F)),
    StableHlo.unary main_v14 main_v15 (broadcastInDim S100000x8 ![0, 1] bcast_S1x8_S100000x8_0_1 : (⟨S1x8, .f32⟩ : BufTy).Contents (Elt F) → (⟨S100000x8, .f32⟩ : BufTy).Contents (Elt F)),
    StableHlo.binary main_v13 main_v15 main_v16 (addf : (⟨S100000x8, .f32⟩ : BufTy).Contents (Elt F) → (⟨S100000x8, .f32⟩ : BufTy).Contents (Elt F) → (⟨S100000x8, .f32⟩ : BufTy).Contents (Elt F)),
    StableHlo.TRef.nullary main_call2.cst (constant S_ .f32 0x00000000#32),
    StableHlo.TRef.unary main_call2.cst main_call2.v0 (broadcastInDim S100000x8 ![] bcast_S_S100000x8),
    StableHlo.TRef.binary (.of main_v16) main_call2.v0 main_call2.v1 (cmpf .ogt),
    StableHlo.TRef.nullary main_call2.cst_0 (constant S_ .f32 0x00000000#32),
    StableHlo.TRef.unary main_call2.cst_0 main_call2.v2 (broadcastInDim S100000x8 ![] bcast_S_S100000x8),
    StableHlo.TRef.binary (.of main_v16) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x8 ![] bcast_S_S100000x8),
    StableHlo.TRef.ternary main_call2.v3 main_call2.call0.v1 (.of main_v16) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x8 ![] bcast_S_S100000x8),
    StableHlo.TRef.binary main_call2.v6 main_call2.v5 main_call2.v7 mulf,
    StableHlo.TRef.ternary main_call2.v1 (.of main_v16) main_call2.v7 main_call2.call1.v0 select ]

/-- Layer 4: the affine map and the exponential linear unit, twenty operations. -/
abbrev seg4 : List (HloOp τ sig (Elt F)) :=
  [ StableHlo.unary main_arg8 main_v18 ((transpose S8x8 [1, 0] · transposes_S8x8_S8x8_1_0) : (⟨S8x8, .f32⟩ : BufTy).Contents (Elt F) → (⟨S8x8, .f32⟩ : BufTy).Contents (Elt F)),
    StableHlo.binary main_v17 main_v18 main_v19 ((fun l r => Host.dotGeneral dot_S100000x8_S8x8_S100000x8_1_0_0_1_n_n none l r) : (⟨S100000x8, .f32⟩ : BufTy).Contents (Elt F) → (⟨S8x8, .f32⟩ : BufTy).Contents (Elt F) → (⟨S100000x8, .f32⟩ : BufTy).Contents (Elt F)),
    StableHlo.unary main_arg9 main_v20 (broadcastInDim S1x8 ![1] bcast_S8_S1x8_1 : (⟨S8, .f32⟩ : BufTy).Contents (Elt F) → (⟨S1x8, .f32⟩ : BufTy).Contents (Elt F)),
    StableHlo.unary main_v20 main_v21 (broadcastInDim S100000x8 ![0, 1] bcast_S1x8_S100000x8_0_1 : (⟨S1x8, .f32⟩ : BufTy).Contents (Elt F) → (⟨S100000x8, .f32⟩ : BufTy).Contents (Elt F)),
    StableHlo.binary main_v19 main_v21 main_v22 (addf : (⟨S100000x8, .f32⟩ : BufTy).Contents (Elt F) → (⟨S100000x8, .f32⟩ : BufTy).Contents (Elt F) → (⟨S100000x8, .f32⟩ : BufTy).Contents (Elt F)),
    StableHlo.TRef.nullary main_call3.cst (constant S_ .f32 0x00000000#32),
    StableHlo.TRef.unary main_call3.cst main_call3.v0 (broadcastInDim S100000x8 ![] bcast_S_S100000x8),
    StableHlo.TRef.binary (.of main_v22) main_call3.v0 main_call3.v1 (cmpf .ogt),
    StableHlo.TRef.nullary main_call3.cst_0 (constant S_ .f32 0x00000000#32),
    StableHlo.TRef.unary main_call3.cst_0 main_call3.v2 (broadcastInDim S100000x8 ![] bcast_S_S100000x8),
    StableHlo.TRef.binary (.of main_v22) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x8 ![] bcast_S_S100000x8),
    StableHlo.TRef.ternary main_call3.v3 main_call3.call0.v1 (.of main_v22) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x8 ![] bcast_S_S100000x8),
    StableHlo.TRef.binary main_call3.v6 main_call3.v5 main_call3.v7 mulf,
    StableHlo.TRef.ternary main_call3.v1 (.of main_v22) main_call3.v7 main_call3.call1.v0 select ]

/-- Layer 5: the affine map and the exponential linear unit, twenty operations. -/
abbrev seg5 : List (HloOp τ sig (Elt F)) :=
  [ StableHlo.unary main_arg10 main_v24 ((transpose S8x16 [1, 0] · transposes_S16x8_S8x16_1_0) : (⟨S16x8, .f32⟩ : BufTy).Contents (Elt F) → (⟨S8x16, .f32⟩ : BufTy).Contents (Elt F)),
    StableHlo.binary main_v23 main_v24 main_v25 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.unary main_arg11 main_v26 (broadcastInDim S1x16 ![1] bcast_S16_S1x16_1 : (⟨S16, .f32⟩ : BufTy).Contents (Elt F) → (⟨S1x16, .f32⟩ : BufTy).Contents (Elt F)),
    StableHlo.unary main_v26 main_v27 (broadcastInDim S100000x16 ![0, 1] bcast_S1x16_S100000x16_0_1 : (⟨S1x16, .f32⟩ : BufTy).Contents (Elt F) → (⟨S100000x16, .f32⟩ : BufTy).Contents (Elt F)),
    StableHlo.binary main_v25 main_v27 main_v28 (addf : (⟨S100000x16, .f32⟩ : BufTy).Contents (Elt F) → (⟨S100000x16, .f32⟩ : BufTy).Contents (Elt F) → (⟨S100000x16, .f32⟩ : BufTy).Contents (Elt F)),
    StableHlo.TRef.nullary main_call4.cst (constant S_ .f32 0x00000000#32),
    StableHlo.TRef.unary main_call4.cst main_call4.v0 (broadcastInDim S100000x16 ![] bcast_S_S100000x16),
    StableHlo.TRef.binary (.of main_v28) main_call4.v0 main_call4.v1 (cmpf .ogt),
    StableHlo.TRef.nullary main_call4.cst_0 (constant S_ .f32 0x00000000#32),
    StableHlo.TRef.unary main_call4.cst_0 main_call4.v2 (broadcastInDim S100000x16 ![] bcast_S_S100000x16),
    StableHlo.TRef.binary (.of main_v28) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x16 ![] bcast_S_S100000x16),
    StableHlo.TRef.ternary main_call4.v3 main_call4.call0.v1 (.of main_v28) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x16 ![] bcast_S_S100000x16),
    StableHlo.TRef.binary main_call4.v6 main_call4.v5 main_call4.v7 mulf,
    StableHlo.TRef.ternary main_call4.v1 (.of main_v28) main_call4.v7 main_call4.call1.v0 select ]

/-- Layer 6: the affine map and the exponential linear unit, twenty operations. -/
abbrev seg6 : List (HloOp τ sig (Elt F)) :=
  [ StableHlo.unary main_arg12 main_v30 ((transpose S16x32 [1, 0] · transposes_S32x16_S16x32_1_0) : (⟨S32x16, .f32⟩ : BufTy).Contents (Elt F) → (⟨S16x32, .f32⟩ : BufTy).Contents (Elt F)),
    StableHlo.binary main_v29 main_v30 main_v31 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg13 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S100000x32 ![0, 1] bcast_S1x32_S100000x32_0_1 : (⟨S1x32, .f32⟩ : BufTy).Contents (Elt F) → (⟨S100000x32, .f32⟩ : BufTy).Contents (Elt F)),
    StableHlo.binary main_v31 main_v33 main_v34 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v34) main_call5.v0 main_call5.v1 (cmpf .ogt),
    StableHlo.TRef.nullary main_call5.cst_0 (constant S_ .f32 0x00000000#32),
    StableHlo.TRef.unary main_call5.cst_0 main_call5.v2 (broadcastInDim S100000x32 ![] bcast_S_S100000x32),
    StableHlo.TRef.binary (.of main_v34) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x32 ![] bcast_S_S100000x32),
    StableHlo.TRef.ternary main_call5.v3 main_call5.call0.v1 (.of main_v34) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x32 ![] bcast_S_S100000x32),
    StableHlo.TRef.binary main_call5.v6 main_call5.v5 main_call5.v7 mulf,
    StableHlo.TRef.ternary main_call5.v1 (.of main_v34) main_call5.v7 main_call5.call1.v0 select ]

/-- Layer 7: the affine map and the exponential linear unit, twenty operations. -/
abbrev seg7 : List (HloOp τ sig (Elt F)) :=
  [ StableHlo.unary main_arg14 main_v36 ((transpose S32x32 [1, 0] · transposes_S32x32_S32x32_1_0) : (⟨S32x32, .f32⟩ : BufTy).Contents (Elt F) → (⟨S32x32, .f32⟩ : BufTy).Contents (Elt F)),
    StableHlo.binary main_v35 main_v36 main_v37 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg15 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S100000x32 ![0, 1] bcast_S1x32_S100000x32_0_1 : (⟨S1x32, .f32⟩ : BufTy).Contents (Elt F) → (⟨S100000x32, .f32⟩ : BufTy).Contents (Elt F)),
    StableHlo.binary main_v37 main_v39 main_v40 (addf : (⟨S100000x32, .f32⟩ : BufTy).Contents (Elt F) → (⟨S100000x32, .f32⟩ : BufTy).Contents (Elt F) → (⟨S100000x32, .f32⟩ : BufTy).Contents (Elt F)),
    StableHlo.TRef.nullary main_call6.cst (constant S_ .f32 0x00000000#32),
    StableHlo.TRef.unary main_call6.cst main_call6.v0 (broadcastInDim S100000x32 ![] bcast_S_S100000x32),
    StableHlo.TRef.binary (.of main_v40) main_call6.v0 main_call6.v1 (cmpf .ogt),
    StableHlo.TRef.nullary main_call6.cst_0 (constant S_ .f32 0x00000000#32),
    StableHlo.TRef.unary main_call6.cst_0 main_call6.v2 (broadcastInDim S100000x32 ![] bcast_S_S100000x32),
    StableHlo.TRef.binary (.of main_v40) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x32 ![] bcast_S_S100000x32),
    StableHlo.TRef.ternary main_call6.v3 main_call6.call0.v1 (.of main_v40) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x32 ![] bcast_S_S100000x32),
    StableHlo.TRef.binary main_call6.v6 main_call6.v5 main_call6.v7 mulf,
    StableHlo.TRef.ternary main_call6.v1 (.of main_v40) main_call6.v7 main_call6.call1.v0 select ]

/-- Layer 8: the affine map and the exponential linear unit, twenty operations. -/
abbrev seg8 : List (HloOp τ sig (Elt F)) :=
  [ StableHlo.unary main_arg16 main_v42 ((transpose S32x32 [1, 0] · transposes_S32x32_S32x32_1_0) : (⟨S32x32, .f32⟩ : BufTy).Contents (Elt F) → (⟨S32x32, .f32⟩ : BufTy).Contents (Elt F)),
    StableHlo.binary main_v41 main_v42 main_v43 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg17 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S100000x32 ![0, 1] bcast_S1x32_S100000x32_0_1 : (⟨S1x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.TRef.nullary main_call7.cst (constant S_ .f32 0x00000000#32),
    StableHlo.TRef.unary main_call7.cst main_call7.v0 (broadcastInDim S100000x32 ![] bcast_S_S100000x32),
    StableHlo.TRef.binary (.of main_v46) main_call7.v0 main_call7.v1 (cmpf .ogt),
    StableHlo.TRef.nullary main_call7.cst_0 (constant S_ .f32 0x00000000#32),
    StableHlo.TRef.unary main_call7.cst_0 main_call7.v2 (broadcastInDim S100000x32 ![] bcast_S_S100000x32),
    StableHlo.TRef.binary (.of main_v46) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x32 ![] bcast_S_S100000x32),
    StableHlo.TRef.ternary main_call7.v3 main_call7.call0.v1 (.of main_v46) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x32 ![] bcast_S_S100000x32),
    StableHlo.TRef.binary main_call7.v6 main_call7.v5 main_call7.v7 mulf,
    StableHlo.TRef.ternary main_call7.v1 (.of main_v46) main_call7.v7 main_call7.call1.v0 select ]

/-- The last affine layer and the change of shape [100000, 1000] → [100000, 1, 1000]. -/
abbrev seg9 : List (HloOp τ sig (Elt F)) :=
  [ StableHlo.unary main_arg18 main_v48 ((transpose S32x1000 [1, 0] · transposes_S1000x32_S32x1000_1_0) : (⟨S1000x32, .f32⟩ : BufTy).Contents (Elt F) → (⟨S32x1000, .f32⟩ : BufTy).Contents (Elt F)),
    StableHlo.binary main_v47 main_v48 main_v49 ((fun l r => Host.dotGeneral dot_S100000x32_S32x1000_S100000x1000_1_0_0_1_n_n none l r) : (⟨S100000x32, .f32⟩ : BufTy).Contents (Elt F) → (⟨S32x1000, .f32⟩ : BufTy).Contents (Elt F) → (⟨S100000x1000, .f32⟩ : BufTy).Contents (Elt F)),
    StableHlo.unary main_arg1 main_v50 (broadcastInDim S1x1000 ![1] bcast_S1000_S1x1000_1 : (⟨S1000, .f32⟩ : BufTy).Contents (Elt F) → (⟨S1x1000, .f32⟩ : BufTy).Contents (Elt F)),
    StableHlo.unary main_v50 main_v51 (broadcastInDim S100000x1000 ![0, 1] bcast_S1x1000_S100000x1000_0_1 : (⟨S1x1000, .f32⟩ : BufTy).Contents (Elt F) → (⟨S100000x1000, .f32⟩ : BufTy).Contents (Elt F)),
    StableHlo.binary main_v49 main_v51 main_v52 (addf : (⟨S100000x1000, .f32⟩ : BufTy).Contents (Elt F) → (⟨S100000x1000, .f32⟩ : BufTy).Contents (Elt F) → (⟨S100000x1000, .f32⟩ : BufTy).Contents (Elt F)),
    StableHlo.reshape main_v52 main_v53 rfl shapeCasts_S100000x1000_S100000x1x1000 ]

/-- The whole program: the nine segments in order. -/
abbrev ops : List (HloOp τ sig (Elt F)) :=
  seg1 ++ seg2 ++ seg3 ++ seg4 ++ seg5 ++ seg6 ++ seg7 ++ seg8 ++ seg9

/-- A property of every operation of every segment is a property of every operation of the program. -/
theorem forall_mem_ops {P : HloOp τ sig (Elt F) → Prop}
    (h1 : ∀ op ∈ (seg1 : List (HloOp τ sig (Elt F))), P op) (h2 : ∀ op ∈ (seg2 : List (HloOp τ sig (Elt F))), P op)
    (h3 : ∀ op ∈ (seg3 : List (HloOp τ sig (Elt F))), P op) (h4 : ∀ op ∈ (seg4 : List (HloOp τ sig (Elt F))), P op)
    (h5 : ∀ op ∈ (seg5 : List (HloOp τ sig (Elt F))), P op) (h6 : ∀ op ∈ (seg6 : List (HloOp τ sig (Elt F))), P op)
    (h7 : ∀ op ∈ (seg7 : List (HloOp τ sig (Elt F))), P op) (h8 : ∀ op ∈ (seg8 : List (HloOp τ sig (Elt F))), P op)
    (h9 : ∀ op ∈ (seg9 : List (HloOp τ sig (Elt F))), P op) :
    ∀ op ∈ (ops : List (HloOp τ sig (Elt F))), P op := by
  intro op h
  simp only [ops, List.mem_append] at h
  rcases h with (((((((h | h) | h) | h) | h) | h) | h) | h) | h
  exacts [h1 op h, h2 op h, h3 op h, h4 op h, h5 op h, h6 op h, h7 op h, h8 op h, h9 op h]

theorem seg1_sub : (seg1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg1_fresh : ∀ op ∈ (seg1 : List (HloOp τ sig (Elt F))), op.fresh = ∅ := by
  intro _ h; (repeat (cases h with | head => rfl | tail _ h => ?_)); exact nomatch h

theorem seg2_sub : (seg2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg2_fresh : ∀ op ∈ (seg2 : List (HloOp τ sig (Elt F))), op.fresh = ∅ := by
  intro _ h; (repeat (cases h with | head => rfl | tail _ h => ?_)); exact nomatch h

theorem seg3_sub : (seg3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg3_fresh : ∀ op ∈ (seg3 : List (HloOp τ sig (Elt F))), op.fresh = ∅ := by
  intro _ h; (repeat (cases h with | head => rfl | tail _ h => ?_)); exact nomatch h

theorem seg4_sub : (seg4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg4_fresh : ∀ op ∈ (seg4 : List (HloOp τ sig (Elt F))), op.fresh = ∅ := by
  intro _ h; (repeat (cases h with | head => rfl | tail _ h => ?_)); exact nomatch h

theorem seg5_sub : (seg5 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg5_fresh : ∀ op ∈ (seg5 : List (HloOp τ sig (Elt F))), op.fresh = ∅ := by
  intro _ h; (repeat (cases h with | head => rfl | tail _ h => ?_)); exact nomatch h

theorem seg6_sub : (seg6 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg6_fresh : ∀ op ∈ (seg6 : List (HloOp τ sig (Elt F))), op.fresh = ∅ := by
  intro _ h; (repeat (cases h with | head => rfl | tail _ h => ?_)); exact nomatch h

theorem seg7_sub : (seg7 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg7_fresh : ∀ op ∈ (seg7 : List (HloOp τ sig (Elt F))), op.fresh = ∅ := by
  intro _ h; (repeat (cases h with | head => rfl | tail _ h => ?_)); exact nomatch h

theorem seg8_sub : (seg8 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem seg8_fresh : ∀ op ∈ (seg8 : List (HloOp τ sig (Elt F))), op.fresh = ∅ := by
  intro _ h; (repeat (cases h with | head => rfl | tail _ h => ?_)); exact nomatch h

theorem seg9_sub : (seg9 : List (HloOp τ sig (Elt F))).Forall fun op => op.bufs ⊆ tcRefs τ sig :=
  ⟨unary_bufs_sub .., binary_bufs_sub .., unary_bufs_sub .., unary_bufs_sub .., binary_bufs_sub .., reshape_bufs_sub ..⟩
theorem seg9_fresh : ∀ op ∈ (seg9 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr (forall_mem_ops
    (List.forall_iff_forall_mem.mp seg1_sub) (List.forall_iff_forall_mem.mp seg2_sub) (List.forall_iff_forall_mem.mp seg3_sub)
    (List.forall_iff_forall_mem.mp seg4_sub) (List.forall_iff_forall_mem.mp seg5_sub) (List.forall_iff_forall_mem.mp seg6_sub)
    (List.forall_iff_forall_mem.mp seg7_sub) (List.forall_iff_forall_mem.mp seg8_sub) (List.forall_iff_forall_mem.mp seg9_sub))

theorem ops_fresh : ∀ op ∈ (ops : List (HloOp τ sig (Elt F))), op.fresh = ∅ :=
  forall_mem_ops seg1_fresh seg2_fresh seg3_fresh seg4_fresh seg5_fresh seg6_fresh seg7_fresh seg8_fresh seg9_fresh

set_option maxRecDepth 16384 in
/-- The program is that straight line: with the called functions' definitions unfolded at their calls, both
    sides are one chain of the same 166 steps once the sequencing is reassociated. -/
theorem main_eq (c : Dev nD) : main (F := F) c = seq ops := by
  simp only [main, fn_where.body, fn_where_0.body, fn_elu.body, fn_where_2.body, fn_where_3.body, fn_elu_1.body, fn_where_5.body, fn_where_6.body, fn_elu_4.body, fn_where_8.body, fn_where_9.body, fn_elu_7.body, ops, seg1, seg2, seg3, seg4, seg5, seg6, seg7, seg8, seg9,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the program terminates, and every
    final state has each buffer at the fold of the 166 operations' results over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefOps

end
-- ==== Proof.LibHostDot.lean ====
/-
  A plain host matrix product read at an index, generic in the three extents.

  For the dimension numbers "rows × contraction times contraction × columns" (`DotDims.plain M K N`: no
  batch axis, the left operand contracted on its last axis, the right on its first), at the ideal values —
  floats extended reals, every operation exact — the host program's `dot_general`, read at the output index
  (r, c), is the plain sum over k of lhs (r, k) · rhs (k, c): it has no accumulator, and no rounding and no
  summation order is left in it.  The contraction index, a one-axis multi-index, is re-indexed by its one
  coordinate, as for the kernel-side product into a zero accumulator (`Cert.Lib.PlainDot`).
-/
import proofs.«132437_j48464410968236_2_alg».proof.Proof.LibPlainDot

noncomputable section

namespace Cert.Lib.HostDot

open Idealize.ShloMosaic Idealize.ShloMosaic.ValueIdx

variable {M K N : Nat}

/-- A plain host `dot_general`, at the ideal values, read at (r, c): the sum over k of lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [Cert.Lib.PlainDot.lhsIdx_plain, Cert.Lib.PlainDot.rhsIdx_plain]

end Cert.Lib.HostDot

end
-- ==== Proof.LibHostLinear.lean ====
/-
  A linear layer as a host program spells it, h · Wᵀ + b, read at an entry; generic in the extents.

  The activations h : [R, K] keep their rows down and their features across.  The weight matrix W : [O, K] is
  transposed to [K, O], the activations are multiplied into it by a plain dot_general, and the bias b : [O] is laid
  out as the row [1, O] by a broadcast_in_dim on axis 1 and repeated down the R rows by a second one.  At the ideal
  values — floats extended reals, every operation exact — entry (r, o) of the result is the finite sum
  ∑ₖ h(r,k) · W(o,k) plus b(o); the product of extended reals commutes, so the factors may be read in either order.
-/
import proofs.«132437_j48464410968236_2_alg».proof.Proof.LibHostDot
import proofs.«132437_j48464410968236_2_alg».proof.Proof.LibUnitAxes
import Idealize.ShloMosaic.Lib.KernelVsHost
import Idealize.ShloMosaic.Lib.Pipeline.Value
import Idealize.ShloMosaic.Lib.ValueIdx

noncomputable section

namespace Cert.HostLayout

open Idealize.ShloMosaic Idealize.ShloMosaic.ValueIdx

variable {R K O : Nat}

/-- A bias [O] laid out as the row [1, O]: entry (0, o) is entry o. -/
theorem biasRow_apply {α : Type} (b : (⟨1, ![O]⟩ : Shape).Idx → α) (h : (⟨1, ![O]⟩ : Shape).BroadcastsInDim ⟨2, ![1, O]⟩ ![1])
    (z : Fin 1) (o : Fin O) : broadcastInDim ⟨2, ![1, O]⟩ ![1] h b (ix2 z o) = b (ix1 o) := by
  refine broadcastInDim_apply ![1] h b (ix2 z o) (ix1 o) fun a => ?_
  match a with
  | ⟨0, _⟩ =>
    show o.val = if O = 1 then 0 else o.val
    split
    · have := o.isLt; omega
    · rfl

/-- The pre-activation: the activations [R, K] times the transposed weights, plus the bias repeated down the rows. -/
def hostPre (D : DotDims ⟨2, ![R, K]⟩ ⟨2, ![K, O]⟩ ⟨2, ![R, O]⟩) (h : FVec Ideal ⟨2, ![R, K]⟩ .f32)
    (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1]) : FVec Ideal ⟨2, ![R, O]⟩ .f32 :=
  addf (Host.dotGeneral (F := Ideal) D none h (transpose ⟨2, ![K, O]⟩ [1, 0] W ht))
    (broadcastInDim ⟨2, ![R, O]⟩ ![0, 1] hd (broadcastInDim ⟨2, ![1, O]⟩ ![1] hr b))

/-- Entry (r, o) of the pre-activation: ∑ₖ W(o,k) · h(r,k) + b(o). -/
theorem hostPre_apply (D : DotDims ⟨2, ![R, K]⟩ ⟨2, ![K, O]⟩ ⟨2, ![R, O]⟩) (hD : D = DotDims.plain R K O)
    (h : FVec Ideal ⟨2, ![R, K]⟩ .f32) (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1]) (r : Fin R) (o : Fin O) :
    hostPre D h W b ht hr hd (ix2 r o) = (∑ k : Fin K, W (ix2 o k) * h (ix2 r k)) + b (ix1 o) := by
  subst hD
  unfold hostPre
  rw [addf_apply, Cert.Lib.HostDot.dotGeneral_plain_apply, broadcastInDim_oneRow_apply, biasRow_apply]
  congr 1
  refine Finset.sum_congr rfl fun k _ => ?_
  rw [Cert.UnitAxes.transpose2, mul_comm]

/-- The last layer (no unit): entry (r, p) is ∑ₖ h(r,k) · W(p,k) + init(p). -/
theorem hostLast_apply (D : DotDims ⟨2, ![R, K]⟩ ⟨2, ![K, O]⟩ ⟨2, ![R, O]⟩) (hD : D = DotDims.plain R K O)
    (h : FVec Ideal ⟨2, ![R, K]⟩ .f32) (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1]) (r : Fin R) (o : Fin O) :
    hostPre D h W b ht hr hd (ix2 r o) = (∑ k : Fin K, h (ix2 r k) * W (ix2 o k)) + b (ix1 o) := by
  rw [hostPre_apply D hD]
  congr 1
  exact Finset.sum_congr rfl fun k _ => mul_comm _ _

end Cert.HostLayout

end
-- ==== Proof.HostLayer.lean ====
/-
  One dense layer as the reference program spells it, read at an entry; generic in the extents.

  The reference keeps the activations as they come: rows down (R of them), features across.  A layer transposes
  the weight matrix [O, K] to [K, O], multiplies the activations [R, K] into it, adds the bias [O] laid out as a
  row [1, O] and repeated down the rows, and applies jax's exponential linear unit:
  select (y > 0) y (1 · expm1 (select (y > 0) 0 y)).  On the extended reals expm1 y is exp y − 1 and 1 · z = z, so
  entry by entry the unit is the specification's  y if y > 0, exp y − 1 otherwise;  and since the product of extended
  reals commutes, entry (r, o) of the layer is the specification's dense layer applied to row r of the activations:
  elu (∑ₖ W(o,k) · h(r,k) + b(o)).  The last layer has no unit: entry (r, p) is ∑ₖ h(r,k) · W(p,k) + init(p).
-/
import proofs.«132437_j48464410968236_2_alg».proof.Proof.Mlp
import proofs.«132437_j48464410968236_2_alg».proof.Proof.LibHostLinear
import Idealize.ShloMosaic.Lib.IdealHost
import Idealize.ShloMosaic.Lib.Pipeline.Value

noncomputable section

namespace Cert.HostLayout

open Idealize.ShloMosaic Idealize.ShloMosaic.ValueIdx Cert.Mlp

/-- The rank-0 shape of a scalar constant. -/
abbrev S0 : Shape := ⟨0, ![]⟩

/-- jax's exponential linear unit on a vector, as the reference program spells it. -/
def hostElu {s : Shape} (hb : S0.BroadcastsInDim s ![]) (y : FVec Ideal s .f32) : FVec Ideal s .f32 :=
  select (cmpf .ogt y (broadcastInDim s ![] hb (constant (F := Ideal) S0 .f32 0x00000000#32))) y
    (mulf (broadcastInDim s ![] hb (constant (F := Ideal) S0 .f32 0x3F800000#32))
      (Host.expm1 (F := Ideal)
        (select (cmpf .ogt y (broadcastInDim s ![] hb (constant (F := Ideal) S0 .f32 0x00000000#32)))
          (broadcastInDim s ![] hb (id (constant (F := Ideal) S0 .f32 0x00000000#32))) y)))

/-- Entry by entry it is the specification's unit: where y > 0 both are y; elsewhere the inner selection keeps y,
    expm1 y is exp y − 1, and the factor one disappears. -/
theorem hostElu_apply {s : Shape} (hb : S0.BroadcastsInDim s ![]) (y : FVec Ideal s .f32) (i : s.Idx) :
    hostElu hb y i = elu (y i) := by
  show Scalar.select (FloatOps.cmpf .ogt (y i) (broadcastInDim s ![] hb (constant (F := Ideal) S0 .f32 0x00000000#32) i)) (y i)
      (broadcastInDim s ![] hb (constant (F := Ideal) S0 .f32 0x3F800000#32) i
        * FloatOps.hostUnary .expm1
            (Scalar.select (FloatOps.cmpf .ogt (y i) (broadcastInDim s ![] hb (constant (F := Ideal) S0 .f32 0x00000000#32) i))
              (broadcastInDim s ![] hb (id (constant (F := Ideal) S0 .f32 0x00000000#32)) i) (y i))) = elu (y i)
  rw [broadcastInDim_scalar_apply, broadcastInDim_scalar_apply, broadcastInDim_scalar_apply]
  simp only [id, constant_apply]
  unfold elu Scalar.select
  by_cases hc : FloatOps.cmpf (F := Ideal) .ogt (y i) (Ideal.ofBits .f32 0x00000000#32) = 1
  · simp only [Ideal.ofBits_def, Scalar.ofBits] at hc ⊢
    rw [if_pos hc, if_pos hc]
  · simp only [Ideal.ofBits_def, Scalar.ofBits] at hc ⊢
    rw [if_neg hc, if_neg hc, if_neg hc, Ideal.ofBits_one_f32, one_mul]
    rfl

variable {R K O : Nat}

/-- One layer of the reference: the pre-activation, then the unit. -/
def hostLayer (D : DotDims ⟨2, ![R, K]⟩ ⟨2, ![K, O]⟩ ⟨2, ![R, O]⟩) (h : FVec Ideal ⟨2, ![R, K]⟩ .f32)
    (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1])
    (hs : S0.BroadcastsInDim ⟨2, ![R, O]⟩ ![]) : FVec Ideal ⟨2, ![R, O]⟩ .f32 :=
  hostElu hs (hostPre D h W b ht hr hd)

/-- Entry (r, o) of a layer is the specification's dense layer on row r of the activations. -/
theorem hostLayer_apply (D : DotDims ⟨2, ![R, K]⟩ ⟨2, ![K, O]⟩ ⟨2, ![R, O]⟩) (hD : D = DotDims.plain R K O)
    (h : FVec Ideal ⟨2, ![R, K]⟩ .f32) (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1])
    (hs : S0.BroadcastsInDim ⟨2, ![R, O]⟩ ![]) (r : Fin R) (o : Fin O) :
    hostLayer D h W b ht hr hd hs (ix2 r o) = dense (mat W) (vec b) (fun k => h (ix2 r k)) o := by
  unfold hostLayer
  rw [hostElu_apply, hostPre_apply D hD]
  rfl

/-- Row r of a layer's result is the dense layer of row r of its operand. -/
theorem hostLayer_row (D : DotDims ⟨2, ![R, K]⟩ ⟨2, ![K, O]⟩ ⟨2, ![R, O]⟩) (hD : D = DotDims.plain R K O)
    (h : FVec Ideal ⟨2, ![R, K]⟩ .f32) (W : FVec Ideal ⟨2, ![O, K]⟩ .f32) (b : FVec Ideal ⟨1, ![O]⟩ .f32)
    (ht : (⟨2, ![O, K]⟩ : Shape).Transposes [1, 0] ⟨2, ![K, O]⟩)
    (hr : (⟨1, ![O]⟩ : Shape).BroadcastsInDim ⟨2, ![1, O]⟩ ![1])
    (hd : (⟨2, ![1, O]⟩ : Shape).BroadcastsInDim ⟨2, ![R, O]⟩ ![0, 1])
    (hs : S0.BroadcastsInDim ⟨2, ![R, O]⟩ ![]) (r : Fin R) (a : Fin K → Ideal .f32)
    (ha : (fun k => h (ix2 r k)) = a) :
    (fun o => hostLayer D h W b ht hr hd hs (ix2 r o)) = dense (mat W) (vec b) a := by
  funext o
  rw [hostLayer_apply D hD, ha]

end Cert.HostLayout

end
-- ==== Proof.RefLayers.lean ====
/-
  The reference's result buffer as a composition of its nine layers.

  The program is nine segments run in a row, so its fold over a valuation is the ninth segment's fold over the
  eighth's over … over the first's.  A segment reads one activation buffer, one weight matrix and one bias, and
  leaves in its last buffer one layer of the reference (the affine map and the exponential linear unit; for the
  ninth the affine map alone, re-laid as [100000, 1, 1000]); it writes none of the program's nineteen arguments.
  Stepping through the segments, the result buffer is the last layer applied to the eighth hidden array, each
  hidden array being one layer applied to the one before, the first to the input.  The hidden arrays are kept as
  named functions and never expanded: each unit reads its argument several times, so the expanded term would grow
  exponentially with the depth.
-/
import proofs.«132437_j48464410968236_2_alg».proof.Proof.RefOps
import proofs.«132437_j48464410968236_2_alg».proof.Proof.HostLayer

noncomputable section

namespace Cert.ReferenceIdeal.RefLayers

open Cert.ReferenceIdeal Cert.ReferenceIdeal.Gen Cert.ReferenceIdeal.RefOps Idealize.ShloMosaic Idealize.ShloMosaic.TcCoe Idealize.SL.Sem Idealize.ShloMosaic.StableHlo
open Cert.HostLayout Cert.Mlp

/-- The fold over two lists in a row is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The program's nineteen arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-! ## Each segment: what it writes, what it keeps, and the layer it leaves -/

/-- The buffers segment 1 writes. -/
abbrev seg1_W : List (Ref sig .tc) := [main_v0, main_v1, main_v2, main_v3, main_v4, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]
theorem seg1_writes : (seg1 : List (HloOp τ sig (Elt Ideal))).Forall fun op => op.writes ⊆ (seg1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 1 does not write keeps its contents through it. -/
theorem seg1_keep (V : Valuation τ sig (Elt Ideal)) (r : Ref sig .tc) (h : r ∉ seg1_W) :
    after seg1 V (Proc.devRef .tc r) = V (Proc.devRef .tc r) :=
  after_of_writes_sub seg1 V seg1_writes h
/-- Segment 1 writes none of the arguments. -/
theorem seg1_args (V : Valuation τ sig (Elt Ideal)) (r : Ref sig .tc) (hr : r ∈ argRefs) :
    after seg1 V (Proc.devRef .tc r) = V (Proc.devRef .tc r) :=
  seg1_keep V r ((by decide : ∀ r ∈ argRefs, r ∉ seg1_W) r hr)
/-- Segment 1 leaves layer 1 of its activation buffer, weight matrix and bias in its last buffer. -/
theorem seg1_out (V : Valuation τ sig (Elt Ideal)) :
    after seg1 V (main_v5 : DevRef τ sig)
      = hostLayer dot_S100000x1_S1x2_S100000x2_1_0_0_1_n_n (V (main_arg0 : DevRef τ sig)) (V (main_arg2 : DevRef τ sig)) (V (main_arg3 : DevRef τ sig))
          transposes_S2x1_S1x2_1_0 bcast_S2_S1x2_1 bcast_S1x2_S100000x2_0_1 bcast_S_S100000x2 := by
  after_results_simp
  rfl

/-- The buffers segment 2 writes. -/
abbrev seg2_W : List (Ref sig .tc) := [main_v6, main_v7, main_v8, main_v9, main_v10, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem seg2_writes : (seg2 : List (HloOp τ sig (Elt Ideal))).Forall fun op => op.writes ⊆ (seg2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 2 does not write keeps its contents through it. -/
theorem seg2_keep (V : Valuation τ sig (Elt Ideal)) (r : Ref sig .tc) (h : r ∉ seg2_W) :
    after seg2 V (Proc.devRef .tc r) = V (Proc.devRef .tc r) :=
  after_of_writes_sub seg2 V seg2_writes h
/-- Segment 2 writes none of the arguments. -/
theorem seg2_args (V : Valuation τ sig (Elt Ideal)) (r : Ref sig .tc) (hr : r ∈ argRefs) :
    after seg2 V (Proc.devRef .tc r) = V (Proc.devRef .tc r) :=
  seg2_keep V r ((by decide : ∀ r ∈ argRefs, r ∉ seg2_W) r hr)
/-- Segment 2 leaves layer 2 of its activation buffer, weight matrix and bias in its last buffer. -/
theorem seg2_out (V : Valuation τ sig (Elt Ideal)) :
    after seg2 V (main_v11 : DevRef τ sig)
      = hostLayer dot_S100000x2_S2x8_S100000x8_1_0_0_1_n_n (V (main_v5 : DevRef τ sig)) (V (main_arg4 : DevRef τ sig)) (V (main_arg5 : DevRef τ sig))
          transposes_S8x2_S2x8_1_0 bcast_S8_S1x8_1 bcast_S1x8_S100000x8_0_1 bcast_S_S100000x8 := by
  after_results_simp
  rfl

/-- The buffers segment 3 writes. -/
abbrev seg3_W : List (Ref sig .tc) := [main_v12, main_v13, main_v14, main_v15, main_v16, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem seg3_writes : (seg3 : List (HloOp τ sig (Elt Ideal))).Forall fun op => op.writes ⊆ (seg3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 3 does not write keeps its contents through it. -/
theorem seg3_keep (V : Valuation τ sig (Elt Ideal)) (r : Ref sig .tc) (h : r ∉ seg3_W) :
    after seg3 V (Proc.devRef .tc r) = V (Proc.devRef .tc r) :=
  after_of_writes_sub seg3 V seg3_writes h
/-- Segment 3 writes none of the arguments. -/
theorem seg3_args (V : Valuation τ sig (Elt Ideal)) (r : Ref sig .tc) (hr : r ∈ argRefs) :
    after seg3 V (Proc.devRef .tc r) = V (Proc.devRef .tc r) :=
  seg3_keep V r ((by decide : ∀ r ∈ argRefs, r ∉ seg3_W) r hr)
/-- Segment 3 leaves layer 3 of its activation buffer, weight matrix and bias in its last buffer. -/
theorem seg3_out (V : Valuation τ sig (Elt Ideal)) :
    after seg3 V (main_v17 : DevRef τ sig)
      = hostLayer dot_S100000x8_S8x8_S100000x8_1_0_0_1_n_n (V (main_v11 : DevRef τ sig)) (V (main_arg6 : DevRef τ sig)) (V (main_arg7 : DevRef τ sig))
          transposes_S8x8_S8x8_1_0 bcast_S8_S1x8_1 bcast_S1x8_S100000x8_0_1 bcast_S_S100000x8 := by
  after_results_simp
  rfl

/-- The buffers segment 4 writes. -/
abbrev seg4_W : List (Ref sig .tc) := [main_v18, main_v19, main_v20, main_v21, main_v22, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem seg4_writes : (seg4 : List (HloOp τ sig (Elt Ideal))).Forall fun op => op.writes ⊆ (seg4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 4 does not write keeps its contents through it. -/
theorem seg4_keep (V : Valuation τ sig (Elt Ideal)) (r : Ref sig .tc) (h : r ∉ seg4_W) :
    after seg4 V (Proc.devRef .tc r) = V (Proc.devRef .tc r) :=
  after_of_writes_sub seg4 V seg4_writes h
/-- Segment 4 writes none of the arguments. -/
theorem seg4_args (V : Valuation τ sig (Elt Ideal)) (r : Ref sig .tc) (hr : r ∈ argRefs) :
    after seg4 V (Proc.devRef .tc r) = V (Proc.devRef .tc r) :=
  seg4_keep V r ((by decide : ∀ r ∈ argRefs, r ∉ seg4_W) r hr)
/-- Segment 4 leaves layer 4 of its activation buffer, weight matrix and bias in its last buffer. -/
theorem seg4_out (V : Valuation τ sig (Elt Ideal)) :
    after seg4 V (main_v23 : DevRef τ sig)
      = hostLayer dot_S100000x8_S8x8_S100000x8_1_0_0_1_n_n (V (main_v17 : DevRef τ sig)) (V (main_arg8 : DevRef τ sig)) (V (main_arg9 : DevRef τ sig))
          transposes_S8x8_S8x8_1_0 bcast_S8_S1x8_1 bcast_S1x8_S100000x8_0_1 bcast_S_S100000x8 := by
  after_results_simp
  rfl

/-- The buffers segment 5 writes. -/
abbrev seg5_W : List (Ref sig .tc) := [main_v24, main_v25, main_v26, main_v27, main_v28, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref]
theorem seg5_writes : (seg5 : List (HloOp τ sig (Elt Ideal))).Forall fun op => op.writes ⊆ (seg5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 5 does not write keeps its contents through it. -/
theorem seg5_keep (V : Valuation τ sig (Elt Ideal)) (r : Ref sig .tc) (h : r ∉ seg5_W) :
    after seg5 V (Proc.devRef .tc r) = V (Proc.devRef .tc r) :=
  after_of_writes_sub seg5 V seg5_writes h
/-- Segment 5 writes none of the arguments. -/
theorem seg5_args (V : Valuation τ sig (Elt Ideal)) (r : Ref sig .tc) (hr : r ∈ argRefs) :
    after seg5 V (Proc.devRef .tc r) = V (Proc.devRef .tc r) :=
  seg5_keep V r ((by decide : ∀ r ∈ argRefs, r ∉ seg5_W) r hr)
/-- Segment 5 leaves layer 5 of its activation buffer, weight matrix and bias in its last buffer. -/
theorem seg5_out (V : Valuation τ sig (Elt Ideal)) :
    after seg5 V (main_v29 : DevRef τ sig)
      = hostLayer dot_S100000x8_S8x16_S100000x16_1_0_0_1_n_n (V (main_v23 : DevRef τ sig)) (V (main_arg10 : DevRef τ sig)) (V (main_arg11 : DevRef τ sig))
          transposes_S16x8_S8x16_1_0 bcast_S16_S1x16_1 bcast_S1x16_S100000x16_0_1 bcast_S_S100000x16 := by
  after_results_simp
  rfl

/-- The buffers segment 6 writes. -/
abbrev seg6_W : List (Ref sig .tc) := [main_v30, main_v31, main_v32, main_v33, main_v34, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref]
theorem seg6_writes : (seg6 : List (HloOp τ sig (Elt Ideal))).Forall fun op => op.writes ⊆ (seg6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 6 does not write keeps its contents through it. -/
theorem seg6_keep (V : Valuation τ sig (Elt Ideal)) (r : Ref sig .tc) (h : r ∉ seg6_W) :
    after seg6 V (Proc.devRef .tc r) = V (Proc.devRef .tc r) :=
  after_of_writes_sub seg6 V seg6_writes h
/-- Segment 6 writes none of the arguments. -/
theorem seg6_args (V : Valuation τ sig (Elt Ideal)) (r : Ref sig .tc) (hr : r ∈ argRefs) :
    after seg6 V (Proc.devRef .tc r) = V (Proc.devRef .tc r) :=
  seg6_keep V r ((by decide : ∀ r ∈ argRefs, r ∉ seg6_W) r hr)
/-- Segment 6 leaves layer 6 of its activation buffer, weight matrix and bias in its last buffer. -/
theorem seg6_out (V : Valuation τ sig (Elt Ideal)) :
    after seg6 V (main_v35 : DevRef τ sig)
      = hostLayer dot_S100000x16_S16x32_S100000x32_1_0_0_1_n_n (V (main_v29 : DevRef τ sig)) (V (main_arg12 : DevRef τ sig)) (V (main_arg13 : DevRef τ sig))
          transposes_S32x16_S16x32_1_0 bcast_S32_S1x32_1 bcast_S1x32_S100000x32_0_1 bcast_S_S100000x32 := by
  after_results_simp
  rfl

/-- The buffers segment 7 writes. -/
abbrev seg7_W : List (Ref sig .tc) := [main_v36, main_v37, main_v38, main_v39, main_v40, main_call6.cst.ref, main_call6.v0.ref, main_call6.v1.ref, main_call6.cst_0.ref, main_call6.v2.ref, main_call6.v3.ref, main_call6.cst_1.ref, main_call6.call0.v0.ref, main_call6.call0.v1.ref, main_call6.call0.v2.ref, main_call6.v5.ref, main_call6.cst_2.ref, main_call6.v6.ref, main_call6.v7.ref, main_call6.call1.v0.ref]
theorem seg7_writes : (seg7 : List (HloOp τ sig (Elt Ideal))).Forall fun op => op.writes ⊆ (seg7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 7 does not write keeps its contents through it. -/
theorem seg7_keep (V : Valuation τ sig (Elt Ideal)) (r : Ref sig .tc) (h : r ∉ seg7_W) :
    after seg7 V (Proc.devRef .tc r) = V (Proc.devRef .tc r) :=
  after_of_writes_sub seg7 V seg7_writes h
/-- Segment 7 writes none of the arguments. -/
theorem seg7_args (V : Valuation τ sig (Elt Ideal)) (r : Ref sig .tc) (hr : r ∈ argRefs) :
    after seg7 V (Proc.devRef .tc r) = V (Proc.devRef .tc r) :=
  seg7_keep V r ((by decide : ∀ r ∈ argRefs, r ∉ seg7_W) r hr)
/-- Segment 7 leaves layer 7 of its activation buffer, weight matrix and bias in its last buffer. -/
theorem seg7_out (V : Valuation τ sig (Elt Ideal)) :
    after seg7 V (main_v41 : DevRef τ sig)
      = hostLayer dot_S100000x32_S32x32_S100000x32_1_0_0_1_n_n (V (main_v35 : DevRef τ sig)) (V (main_arg14 : DevRef τ sig)) (V (main_arg15 : DevRef τ sig))
          transposes_S32x32_S32x32_1_0 bcast_S32_S1x32_1 bcast_S1x32_S100000x32_0_1 bcast_S_S100000x32 := by
  after_results_simp
  rfl

/-- The buffers segment 8 writes. -/
abbrev seg8_W : List (Ref sig .tc) := [main_v42, main_v43, main_v44, main_v45, main_v46, main_call7.cst.ref, main_call7.v0.ref, main_call7.v1.ref, main_call7.cst_0.ref, main_call7.v2.ref, main_call7.v3.ref, main_call7.cst_1.ref, main_call7.call0.v0.ref, main_call7.call0.v1.ref, main_call7.call0.v2.ref, main_call7.v5.ref, main_call7.cst_2.ref, main_call7.v6.ref, main_call7.v7.ref, main_call7.call1.v0.ref]
theorem seg8_writes : (seg8 : List (HloOp τ sig (Elt Ideal))).Forall fun op => op.writes ⊆ (seg8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 8 does not write keeps its contents through it. -/
theorem seg8_keep (V : Valuation τ sig (Elt Ideal)) (r : Ref sig .tc) (h : r ∉ seg8_W) :
    after seg8 V (Proc.devRef .tc r) = V (Proc.devRef .tc r) :=
  after_of_writes_sub seg8 V seg8_writes h
/-- Segment 8 writes none of the arguments. -/
theorem seg8_args (V : Valuation τ sig (Elt Ideal)) (r : Ref sig .tc) (hr : r ∈ argRefs) :
    after seg8 V (Proc.devRef .tc r) = V (Proc.devRef .tc r) :=
  seg8_keep V r ((by decide : ∀ r ∈ argRefs, r ∉ seg8_W) r hr)
/-- Segment 8 leaves layer 8 of its activation buffer, weight matrix and bias in its last buffer. -/
theorem seg8_out (V : Valuation τ sig (Elt Ideal)) :
    after seg8 V (main_v47 : DevRef τ sig)
      = hostLayer dot_S100000x32_S32x32_S100000x32_1_0_0_1_n_n (V (main_v41 : DevRef τ sig)) (V (main_arg16 : DevRef τ sig)) (V (main_arg17 : DevRef τ sig))
          transposes_S32x32_S32x32_1_0 bcast_S32_S1x32_1 bcast_S1x32_S100000x32_0_1 bcast_S_S100000x32 := by
  after_results_simp
  rfl

/-- The buffers segment 9 writes. -/
abbrev seg9_W : List (Ref sig .tc) := [main_v48, main_v49, main_v50, main_v51, main_v52, main_v53]
theorem seg9_writes : (seg9 : List (HloOp τ sig (Elt Ideal))).Forall fun op => op.writes ⊆ (seg9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 9 does not write keeps its contents through it. -/
theorem seg9_keep (V : Valuation τ sig (Elt Ideal)) (r : Ref sig .tc) (h : r ∉ seg9_W) :
    after seg9 V (Proc.devRef .tc r) = V (Proc.devRef .tc r) :=
  after_of_writes_sub seg9 V seg9_writes h
/-- Segment 9 writes none of the arguments. -/
theorem seg9_args (V : Valuation τ sig (Elt Ideal)) (r : Ref sig .tc) (hr : r ∈ argRefs) :
    after seg9 V (Proc.devRef .tc r) = V (Proc.devRef .tc r) :=
  seg9_keep V r ((by decide : ∀ r ∈ argRefs, r ∉ seg9_W) r hr)
/-- Segment 9 leaves the last affine layer, re-laid as [100000, 1, 1000], in the result buffer. -/
theorem seg9_out (V : Valuation τ sig (Elt Ideal)) :
    after seg9 V (main_v53 : DevRef τ sig)
      = shapeCast S100000x1x1000 (hostPre dot_S100000x32_S32x1000_S100000x1000_1_0_0_1_n_n (V (main_v47 : DevRef τ sig)) (V (main_arg18 : DevRef τ sig)) (V (main_arg1 : DevRef τ sig))
          transposes_S1000x32_S32x1000_1_0 bcast_S1000_S1x1000_1 bcast_S1x1000_S100000x1000_0_1) shapeCasts_S100000x1000_S100000x1x1000 := by
  after_results_simp
  rfl

/-! ## The hidden arrays and the result, as named functions of the arguments -/

/-- The eight weight matrices and biases read off a valuation's argument buffers. -/
def wOf (V : Valuation τ sig (Elt Ideal)) : Weights :=
  ⟨V (main_arg2 : DevRef τ sig), V (main_arg3 : DevRef τ sig), V (main_arg4 : DevRef τ sig), V (main_arg5 : DevRef τ sig), V (main_arg6 : DevRef τ sig), V (main_arg7 : DevRef τ sig), V (main_arg8 : DevRef τ sig), V (main_arg9 : DevRef τ sig), V (main_arg10 : DevRef τ sig), V (main_arg11 : DevRef τ sig), V (main_arg12 : DevRef τ sig), V (main_arg13 : DevRef τ sig), V (main_arg14 : DevRef τ sig), V (main_arg15 : DevRef τ sig), V (main_arg16 : DevRef τ sig), V (main_arg17 : DevRef τ sig)⟩

/-- The array of activations after layer 1, all rows at once. -/
def hid1 (x : FVec Ideal S100000x1 .f32) (w : Weights) : FVec Ideal S100000x2 .f32 :=
  hostLayer dot_S100000x1_S1x2_S100000x2_1_0_0_1_n_n x w.W1 w.b1 transposes_S2x1_S1x2_1_0 bcast_S2_S1x2_1 bcast_S1x2_S100000x2_0_1 bcast_S_S100000x2
/-- The array of activations after layer 2, all rows at once. -/
def hid2 (x : FVec Ideal S100000x1 .f32) (w : Weights) : FVec Ideal S100000x8 .f32 :=
  hostLayer dot_S100000x2_S2x8_S100000x8_1_0_0_1_n_n (hid1 x w) w.W2 w.b2 transposes_S8x2_S2x8_1_0 bcast_S8_S1x8_1 bcast_S1x8_S100000x8_0_1 bcast_S_S100000x8
/-- The array of activations after layer 3, all rows at once. -/
def hid3 (x : FVec Ideal S100000x1 .f32) (w : Weights) : FVec Ideal S100000x8 .f32 :=
  hostLayer dot_S100000x8_S8x8_S100000x8_1_0_0_1_n_n (hid2 x w) w.W3 w.b3 transposes_S8x8_S8x8_1_0 bcast_S8_S1x8_1 bcast_S1x8_S100000x8_0_1 bcast_S_S100000x8
/-- The array of activations after layer 4, all rows at once. -/
def hid4 (x : FVec Ideal S100000x1 .f32) (w : Weights) : FVec Ideal S100000x8 .f32 :=
  hostLayer dot_S100000x8_S8x8_S100000x8_1_0_0_1_n_n (hid3 x w) w.W4 w.b4 transposes_S8x8_S8x8_1_0 bcast_S8_S1x8_1 bcast_S1x8_S100000x8_0_1 bcast_S_S100000x8
/-- The array of activations after layer 5, all rows at once. -/
def hid5 (x : FVec Ideal S100000x1 .f32) (w : Weights) : FVec Ideal S100000x16 .f32 :=
  hostLayer dot_S100000x8_S8x16_S100000x16_1_0_0_1_n_n (hid4 x w) w.W5 w.b5 transposes_S16x8_S8x16_1_0 bcast_S16_S1x16_1 bcast_S1x16_S100000x16_0_1 bcast_S_S100000x16
/-- The array of activations after layer 6, all rows at once. -/
def hid6 (x : FVec Ideal S100000x1 .f32) (w : Weights) : FVec Ideal S100000x32 .f32 :=
  hostLayer dot_S100000x16_S16x32_S100000x32_1_0_0_1_n_n (hid5 x w) w.W6 w.b6 transposes_S32x16_S16x32_1_0 bcast_S32_S1x32_1 bcast_S1x32_S100000x32_0_1 bcast_S_S100000x32
/-- The array of activations after layer 7, all rows at once. -/
def hid7 (x : FVec Ideal S100000x1 .f32) (w : Weights) : FVec Ideal S100000x32 .f32 :=
  hostLayer dot_S100000x32_S32x32_S100000x32_1_0_0_1_n_n (hid6 x w) w.W7 w.b7 transposes_S32x32_S32x32_1_0 bcast_S32_S1x32_1 bcast_S1x32_S100000x32_0_1 bcast_S_S100000x32
/-- The array of activations after layer 8, all rows at once. -/
def hid8 (x : FVec Ideal S100000x1 .f32) (w : Weights) : FVec Ideal S100000x32 .f32 :=
  hostLayer dot_S100000x32_S32x32_S100000x32_1_0_0_1_n_n (hid7 x w) w.W8 w.b8 transposes_S32x32_S32x32_1_0 bcast_S32_S1x32_1 bcast_S1x32_S100000x32_0_1 bcast_S_S100000x32
/-- The result before the change of shape: the last affine layer on the eighth hidden array. -/
def outT (x : FVec Ideal S100000x1 .f32) (init : FVec Ideal S1000 .f32) (w : Weights) (W9 : FVec Ideal S1000x32 .f32) :
    FVec Ideal S100000x1000 .f32 :=
  hostPre dot_S100000x32_S32x1000_S100000x1000_1_0_0_1_n_n (hid8 x w) W9 init transposes_S1000x32_S32x1000_1_0 bcast_S1000_S1x1000_1 bcast_S1x1000_S100000x1000_0_1

/-! ## Stepping through the segments -/

/-- If a valuation agrees with the starting one on the arguments and holds hidden array 0 in its buffer (for the first layer: the input itself),
    then after segment 1 the arguments are still the starting ones and hidden array 1 is in its buffer. -/
theorem step1 (V0 V : Valuation τ sig (Elt Ideal))
    (hk : ∀ r ∈ argRefs, V (Proc.devRef .tc r) = V0 (Proc.devRef .tc r)) :
    (∀ r ∈ argRefs, after seg1 V (Proc.devRef .tc r) = V0 (Proc.devRef .tc r))
      ∧ after seg1 V (main_v5 : DevRef τ sig) = hid1 (V0 (main_arg0 : DevRef τ sig)) (wOf V0) := by
  refine ⟨fun r hr => (seg1_args V r hr).trans (hk r hr), ?_⟩
  rw [seg1_out, hk main_arg0 (by decide), hk main_arg2 (by decide), hk main_arg3 (by decide)]
  rfl

/-- If a valuation agrees with the starting one on the arguments and holds hidden array 1 in its buffer,
    then after segment 2 the arguments are still the starting ones and hidden array 2 is in its buffer. -/
theorem step2 (V0 V : Valuation τ sig (Elt Ideal))
    (hk : ∀ r ∈ argRefs, V (Proc.devRef .tc r) = V0 (Proc.devRef .tc r)) (ho : V (main_v5 : DevRef τ sig) = hid1 (V0 (main_arg0 : DevRef τ sig)) (wOf V0)) :
    (∀ r ∈ argRefs, after seg2 V (Proc.devRef .tc r) = V0 (Proc.devRef .tc r))
      ∧ after seg2 V (main_v11 : DevRef τ sig) = hid2 (V0 (main_arg0 : DevRef τ sig)) (wOf V0) := by
  refine ⟨fun r hr => (seg2_args V r hr).trans (hk r hr), ?_⟩
  rw [seg2_out, ho, hk main_arg4 (by decide), hk main_arg5 (by decide)]
  rfl

/-- If a valuation agrees with the starting one on the arguments and holds hidden array 2 in its buffer,
    then after segment 3 the arguments are still the starting ones and hidden array 3 is in its buffer. -/
theorem step3 (V0 V : Valuation τ sig (Elt Ideal))
    (hk : ∀ r ∈ argRefs, V (Proc.devRef .tc r) = V0 (Proc.devRef .tc r)) (ho : V (main_v11 : DevRef τ sig) = hid2 (V0 (main_arg0 : DevRef τ sig)) (wOf V0)) :
    (∀ r ∈ argRefs, after seg3 V (Proc.devRef .tc r) = V0 (Proc.devRef .tc r))
      ∧ after seg3 V (main_v17 : DevRef τ sig) = hid3 (V0 (main_arg0 : DevRef τ sig)) (wOf V0) := by
  refine ⟨fun r hr => (seg3_args V r hr).trans (hk r hr), ?_⟩
  rw [seg3_out, ho, hk main_arg6 (by decide), hk main_arg7 (by decide)]
  rfl

/-- If a valuation agrees with the starting one on the arguments and holds hidden array 3 in its buffer,
    then after segment 4 the arguments are still the starting ones and hidden array 4 is in its buffer. -/
theorem step4 (V0 V : Valuation τ sig (Elt Ideal))
    (hk : ∀ r ∈ argRefs, V (Proc.devRef .tc r) = V0 (Proc.devRef .tc r)) (ho : V (main_v17 : DevRef τ sig) = hid3 (V0 (main_arg0 : DevRef τ sig)) (wOf V0)) :
    (∀ r ∈ argRefs, after seg4 V (Proc.devRef .tc r) = V0 (Proc.devRef .tc r))
      ∧ after seg4 V (main_v23 : DevRef τ sig) = hid4 (V0 (main_arg0 : DevRef τ sig)) (wOf V0) := by
  refine ⟨fun r hr => (seg4_args V r hr).trans (hk r hr), ?_⟩
  rw [seg4_out, ho, hk main_arg8 (by decide), hk main_arg9 (by decide)]
  rfl

/-- If a valuation agrees with the starting one on the arguments and holds hidden array 4 in its buffer,
    then after segment 5 the arguments are still the starting ones and hidden array 5 is in its buffer. -/
theorem step5 (V0 V : Valuation τ sig (Elt Ideal))
    (hk : ∀ r ∈ argRefs, V (Proc.devRef .tc r) = V0 (Proc.devRef .tc r)) (ho : V (main_v23 : DevRef τ sig) = hid4 (V0 (main_arg0 : DevRef τ sig)) (wOf V0)) :
    (∀ r ∈ argRefs, after seg5 V (Proc.devRef .tc r) = V0 (Proc.devRef .tc r))
      ∧ after seg5 V (main_v29 : DevRef τ sig) = hid5 (V0 (main_arg0 : DevRef τ sig)) (wOf V0) := by
  refine ⟨fun r hr => (seg5_args V r hr).trans (hk r hr), ?_⟩
  rw [seg5_out, ho, hk main_arg10 (by decide), hk main_arg11 (by decide)]
  rfl

/-- If a valuation agrees with the starting one on the arguments and holds hidden array 5 in its buffer,
    then after segment 6 the arguments are still the starting ones and hidden array 6 is in its buffer. -/
theorem step6 (V0 V : Valuation τ sig (Elt Ideal))
    (hk : ∀ r ∈ argRefs, V (Proc.devRef .tc r) = V0 (Proc.devRef .tc r)) (ho : V (main_v29 : DevRef τ sig) = hid5 (V0 (main_arg0 : DevRef τ sig)) (wOf V0)) :
    (∀ r ∈ argRefs, after seg6 V (Proc.devRef .tc r) = V0 (Proc.devRef .tc r))
      ∧ after seg6 V (main_v35 : DevRef τ sig) = hid6 (V0 (main_arg0 : DevRef τ sig)) (wOf V0) := by
  refine ⟨fun r hr => (seg6_args V r hr).trans (hk r hr), ?_⟩
  rw [seg6_out, ho, hk main_arg12 (by decide), hk main_arg13 (by decide)]
  rfl

/-- If a valuation agrees with the starting one on the arguments and holds hidden array 6 in its buffer,
    then after segment 7 the arguments are still the starting ones and hidden array 7 is in its buffer. -/
theorem step7 (V0 V : Valuation τ sig (Elt Ideal))
    (hk : ∀ r ∈ argRefs, V (Proc.devRef .tc r) = V0 (Proc.devRef .tc r)) (ho : V (main_v35 : DevRef τ sig) = hid6 (V0 (main_arg0 : DevRef τ sig)) (wOf V0)) :
    (∀ r ∈ argRefs, after seg7 V (Proc.devRef .tc r) = V0 (Proc.devRef .tc r))
      ∧ after seg7 V (main_v41 : DevRef τ sig) = hid7 (V0 (main_arg0 : DevRef τ sig)) (wOf V0) := by
  refine ⟨fun r hr => (seg7_args V r hr).trans (hk r hr), ?_⟩
  rw [seg7_out, ho, hk main_arg14 (by decide), hk main_arg15 (by decide)]
  rfl

/-- If a valuation agrees with the starting one on the arguments and holds hidden array 7 in its buffer,
    then after segment 8 the arguments are still the starting ones and hidden array 8 is in its buffer. -/
theorem step8 (V0 V : Valuation τ sig (Elt Ideal))
    (hk : ∀ r ∈ argRefs, V (Proc.devRef .tc r) = V0 (Proc.devRef .tc r)) (ho : V (main_v41 : DevRef τ sig) = hid7 (V0 (main_arg0 : DevRef τ sig)) (wOf V0)) :
    (∀ r ∈ argRefs, after seg8 V (Proc.devRef .tc r) = V0 (Proc.devRef .tc r))
      ∧ after seg8 V (main_v47 : DevRef τ sig) = hid8 (V0 (main_arg0 : DevRef τ sig)) (wOf V0) := by
  refine ⟨fun r hr => (seg8_args V r hr).trans (hk r hr), ?_⟩
  rw [seg8_out, ho, hk main_arg16 (by decide), hk main_arg17 (by decide)]
  rfl

/-- The result buffer after the whole program: the last layer on the eighth hidden array, re-laid. -/
theorem ops_out (V : Valuation τ sig (Elt Ideal)) :
    after ops V (main_v53 : DevRef τ sig)
      = shapeCast S100000x1x1000 (outT (V (main_arg0 : DevRef τ sig)) (V (main_arg1 : DevRef τ sig)) (wOf V) (V (main_arg18 : DevRef τ sig)))
          shapeCasts_S100000x1000_S100000x1x1000 := by
  simp only [ops, after_append]
  obtain ⟨k1, o1⟩ := step1 V V (fun _ _ => rfl)
  obtain ⟨k2, o2⟩ := step2 V _ k1 o1
  obtain ⟨k3, o3⟩ := step3 V _ k2 o2
  obtain ⟨k4, o4⟩ := step4 V _ k3 o3
  obtain ⟨k5, o5⟩ := step5 V _ k4 o4
  obtain ⟨k6, o6⟩ := step6 V _ k5 o5
  obtain ⟨k7, o7⟩ := step7 V _ k6 o6
  obtain ⟨k8, o8⟩ := step8 V _ k7 o7
  rw [seg9_out, o8, k8 main_arg18 (by decide), k8 main_arg1 (by decide)]
  rfl

/-- The whole program writes none of its arguments. -/
theorem ops_arg (V : Valuation τ sig (Elt Ideal)) (r : Ref sig .tc) (hr : r ∈ argRefs) :
    after ops V (Proc.devRef .tc r) = V (Proc.devRef .tc r) := by
  simp only [ops, after_append]
  rw [seg9_args _ r hr, seg8_args _ r hr, seg7_args _ r hr, seg6_args _ r hr, seg5_args _ r hr, seg4_args _ r hr,
    seg3_args _ r hr, seg2_args _ r hr, seg1_args _ r hr]

end Cert.ReferenceIdeal.RefLayers

end
-- ==== Proof.RefValue.lean ====
/-
  The reference computes the decoder, entry by entry.

  Row r of the first hidden array is the first dense layer applied to the one input number of row r, and row r of
  each later hidden array is the next dense layer applied to row r of the one before: a layer's entry (r, o) reads
  only row r of its operand.  So row r of the eighth hidden array is the eighth activation vector of the input
  number of row r, and entry (r, p) of the last affine layer is the decoded value of row r at point p.  The
  program's result is that array re-laid as [100000, 1, 1000], and its arguments end as they began.
-/
import proofs.«132437_j48464410968236_2_alg».proof.Proof.RefLayers

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefLayers Cert.HostLayout Cert.Mlp Idealize.ShloMosaic.ValueIdx

/-- Row r of the first hidden array: the first layer on the one input number of row r. -/
theorem hid1_row (x : FVec Ideal S100000x1 .f32) (w : Weights) (r : Fin 100000) :
    (fun o => hid1 x w (ix2 r o)) = act1 w (x (ix2 r (0 : Fin 1))) := by
  unfold hid1 act1
  exact hostLayer_row _ rfl x w.W1 w.b1 _ _ _ _ r _ (funext fun k => by rw [Subsingleton.elim k (0 : Fin 1)])

/-- Row r of hidden array 2: layer 2 on row r of hidden array 1. -/
theorem hid2_row (x : FVec Ideal S100000x1 .f32) (w : Weights) (r : Fin 100000) :
    (fun o => hid2 x w (ix2 r o)) = act2 w (x (ix2 r (0 : Fin 1))) := by
  unfold hid2 act2
  exact hostLayer_row _ rfl (hid1 x w) w.W2 w.b2 _ _ _ _ r _ (hid1_row x w r)

/-- Row r of hidden array 3: layer 3 on row r of hidden array 2. -/
theorem hid3_row (x : FVec Ideal S100000x1 .f32) (w : Weights) (r : Fin 100000) :
    (fun o => hid3 x w (ix2 r o)) = act3 w (x (ix2 r (0 : Fin 1))) := by
  unfold hid3 act3
  exact hostLayer_row _ rfl (hid2 x w) w.W3 w.b3 _ _ _ _ r _ (hid2_row x w r)

/-- Row r of hidden array 4: layer 4 on row r of hidden array 3. -/
theorem hid4_row (x : FVec Ideal S100000x1 .f32) (w : Weights) (r : Fin 100000) :
    (fun o => hid4 x w (ix2 r o)) = act4 w (x (ix2 r (0 : Fin 1))) := by
  unfold hid4 act4
  exact hostLayer_row _ rfl (hid3 x w) w.W4 w.b4 _ _ _ _ r _ (hid3_row x w r)

/-- Row r of hidden array 5: layer 5 on row r of hidden array 4. -/
theorem hid5_row (x : FVec Ideal S100000x1 .f32) (w : Weights) (r : Fin 100000) :
    (fun o => hid5 x w (ix2 r o)) = act5 w (x (ix2 r (0 : Fin 1))) := by
  unfold hid5 act5
  exact hostLayer_row _ rfl (hid4 x w) w.W5 w.b5 _ _ _ _ r _ (hid4_row x w r)

/-- Row r of hidden array 6: layer 6 on row r of hidden array 5. -/
theorem hid6_row (x : FVec Ideal S100000x1 .f32) (w : Weights) (r : Fin 100000) :
    (fun o => hid6 x w (ix2 r o)) = act6 w (x (ix2 r (0 : Fin 1))) := by
  unfold hid6 act6
  exact hostLayer_row _ rfl (hid5 x w) w.W6 w.b6 _ _ _ _ r _ (hid5_row x w r)

/-- Row r of hidden array 7: layer 7 on row r of hidden array 6. -/
theorem hid7_row (x : FVec Ideal S100000x1 .f32) (w : Weights) (r : Fin 100000) :
    (fun o => hid7 x w (ix2 r o)) = act7 w (x (ix2 r (0 : Fin 1))) := by
  unfold hid7 act7
  exact hostLayer_row _ rfl (hid6 x w) w.W7 w.b7 _ _ _ _ r _ (hid6_row x w r)

/-- Row r of hidden array 8: layer 8 on row r of hidden array 7. -/
theorem hid8_row (x : FVec Ideal S100000x1 .f32) (w : Weights) (r : Fin 100000) :
    (fun o => hid8 x w (ix2 r o)) = act8 w (x (ix2 r (0 : Fin 1))) := by
  unfold hid8 act8
  exact hostLayer_row _ rfl (hid7 x w) w.W8 w.b8 _ _ _ _ r _ (hid7_row x w r)

/-- The result before the change of shape is the decoder. -/
theorem outT_eq (x : FVec Ideal S100000x1 .f32) (init : FVec Ideal S1000 .f32) (w : Weights) (W9 : FVec Ideal S1000x32 .f32) :
    outT x init w W9 = depth x init w W9 := by
  funext j
  obtain ⟨r, p, rfl⟩ : ∃ (r : Fin 100000) (p : Fin 1000), j = ix2 r p := ⟨j 0, j 1, eq_ix2 j⟩
  rw [depth_apply]
  unfold outT depthAt
  rw [hostLast_apply dot_S100000x32_S32x1000_S100000x1000_1_0_0_1_n_n rfl]
  have e : ∀ k : Fin 32, hid8 x w (ix2 r k) = act8 w (x (ix2 r (0 : Fin 1))) k := fun k => congrFun (hid8_row x w r) k
  simp only [e]

/-- From any memory with zero counters every weakly fair execution of the reference terminates with the decoder of
    the arguments, re-laid as [100000, 1, 1000], in its result buffer, and with the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
        = shapeCast S100000x1x1000 (Cert.Mlp.depth (m ((c.tc : Thread nD τ).loc main_arg0)) (m ((c.tc : Thread nD τ).loc main_arg1))
            ⟨(m ((c.tc : Thread nD τ).loc main_arg2)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17))⟩
            (m ((c.tc : Thread nD τ).loc main_arg18))) shapeCasts_S100000x1000_S100000x1x1000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨(h c main_v53).trans ((ops_out (launchContents m c)).trans
        (congrArg (fun t => shapeCast S100000x1x1000 t shapeCasts_S100000x1000_S100000x1x1000) (outT_eq _ _ _ _))),
      (h c main_arg0).trans (ops_arg (launchContents m c) main_arg0 (by decide)),
      (h c main_arg1).trans (ops_arg (launchContents m c) main_arg1 (by decide)),
      (h c main_arg2).trans (ops_arg (launchContents m c) main_arg2 (by decide)),
      (h c main_arg3).trans (ops_arg (launchContents m c) main_arg3 (by decide)),
      (h c main_arg4).trans (ops_arg (launchContents m c) main_arg4 (by decide)),
      (h c main_arg5).trans (ops_arg (launchContents m c) main_arg5 (by decide)),
      (h c main_arg6).trans (ops_arg (launchContents m c) main_arg6 (by decide)),
      (h c main_arg7).trans (ops_arg (launchContents m c) main_arg7 (by decide)),
      (h c main_arg8).trans (ops_arg (launchContents m c) main_arg8 (by decide)),
      (h c main_arg9).trans (ops_arg (launchContents m c) main_arg9 (by decide)),
      (h c main_arg10).trans (ops_arg (launchContents m c) main_arg10 (by decide)),
      (h c main_arg11).trans (ops_arg (launchContents m c) main_arg11 (by decide)),
      (h c main_arg12).trans (ops_arg (launchContents m c) main_arg12 (by decide)),
      (h c main_arg13).trans (ops_arg (launchContents m c) main_arg13 (by decide)),
      (h c main_arg14).trans (ops_arg (launchContents m c) main_arg14 (by decide)),
      (h c main_arg15).trans (ops_arg (launchContents m c) main_arg15 (by decide)),
      (h c main_arg16).trans (ops_arg (launchContents m c) main_arg16 (by decide)),
      (h c main_arg17).trans (ops_arg (launchContents m c) main_arg17 (by decide)),
      (h c main_arg18).trans (ops_arg (launchContents m c) main_arg18 (by decide))⟩)
    (run_main m ρ)

end Cert.ReferenceIdeal.RefValue

end
-- ==== Proof.lean ====
/-
  The certificate of a nine-layer decoder: a Pallas kernel against its jax reference, on the extended reals.

  Every row of the input x : [100000, 1] holds one number.  Eight dense layers of widths 1 → 2 → 8 → 8 → 8 → 16 → 32 → 32 → 32
  follow, each  h ↦ elu (W h + b)  with  elu y = y for y > 0 and exp y − 1 otherwise,  and a ninth without bias or unit
  that adds a learned offset per point:  depth(r, p) = ∑ₖ h₈(x_r)(k) · W9(p,k) + init(p),  returned as [100000, 1, 1000].

  The kernel cuts the rows in 25 blocks of 4000, transposes each block so that the rows run across, applies the layers
  as  W · hᵀ  with the bias as a column, spells the unit with exp, transposes back for the last product and stores the
  block; a reshape follows the call.  The reference applies the layers as  h · Wᵀ  with the bias as a row and jax's unit,
  select (y > 0) y (1 · expm1 (select (y > 0) 0 y)).  Read exactly, expm1 y is exp y − 1 and the factor one is no factor,
  a product into a zero accumulator and a dot product are the same finite sum, and the two orders of the factors in
  W(o,k) · h(k) differ by the commutativity of the product on the extended reals — the only law used, so that the
  inputs' finiteness is never needed.  Both result buffers therefore end at the one function `Cert.Mlp.depth` of the
  argument arrays, reshaped: block by block on the kernel's side (every row lies in exactly one block), operation by
  operation on the reference's.  The three frames are the kernels' generated frames and the reference's run; the ideal
  pass rewrote nothing, so the kernel's idealization is its own text.
-/
import proofs.«132437_j48464410968236_2_alg».proof.Defs
import proofs.«132437_j48464410968236_2_alg».proof.Proof.Gen.Kernel
import proofs.«132437_j48464410968236_2_alg».proof.Proof.Gen.Kernel.Frame
import proofs.«132437_j48464410968236_2_alg».proof.Proof.Gen.KernelIdeal
import proofs.«132437_j48464410968236_2_alg».proof.Proof.Gen.KernelIdeal.Frame
import proofs.«132437_j48464410968236_2_alg».proof.Proof.Gen.ReferenceIdeal
import proofs.«132437_j48464410968236_2_alg».proof.Proof.Gen.Pre_finite_inputs
import proofs.«132437_j48464410968236_2_alg».proof.Proof.KRun
import proofs.«132437_j48464410968236_2_alg».proof.Proof.RefValue

noncomputable section

namespace Cert.Proof

open Idealize.ShloMosaic Idealize.ShloMosaic.TcCoe Idealize.SL.Sem

/-- The word-level kernel terminates without a fault and leaves its arguments alone (the generated frame). -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the statement about the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing in this kernel. -/
theorem preserves : Cert.preserves_Kernel_KernelIdeal := trivial

/-- Run from memories that agree on the nineteen arguments, both idealized programs end with the result buffer at the
    decoder's value of those arguments, laid out [100000, 1, 1000]: the same array on both sides. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
